-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x1024 : Shape := ⟨3, ![1, 3, 1024]⟩
abbrev S1x1x1024 : Shape := ⟨3, ![1, 1, 1024]⟩
abbrev S1x1x4096 : Shape := ⟨3, ![1, 1, 4096]⟩
abbrev S3x1024 : Shape := ⟨2, ![3, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x4096 : Shape := ⟨2, ![1, 4096]⟩
abbrev S8x4096 : Shape := ⟨2, ![8, 4096]⟩
abbrev S_ : Shape := ⟨0, ![]⟩
abbrev S8 : Shape := ⟨1, ![8]⟩

abbrev nBuf : Space → Nat
  | .hbm => 27
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v55 : BitVec 32 := Scalar.muli arg2 c1024_i32
  v55
def k0_off1 (i : grid0.Coords) : Fin 3 → Nat :=
  let c0_16 : Index := 0#32
  let c0_17 : Index := 0#32
  let arg2 : BitVec 32 := BitVec.ofNat 32 (i 2).val
  let c1024_i32 : BitVec 32 := 1024#32
  let v55 : BitVec 32 := Scalar.muli arg2 c1024_i32
  let v56 : BitVec 32 := v55
  let v62 : Index := Scalar.indexCast v56
  ![0, 0, v62.toNat]
def k0_cond1 (i : grid0.Coords) : BitVec 1 :=
  let arg2 : BitVec 32 := BitVec.ofNat 32 (i 2).val
  let c0_i32 : BitVec 32 := 0#32
  let v49 : BitVec 1 := Scalar.cmpi .eq arg2 c0_i32
  let v50 : BitVec 32 := Scalar.extui v49
  let c0_i32_10 : BitVec 32 := 0#32
  let v51 : BitVec 1 := Scalar.cmpi .ne v50 c0_i32_10
  v51

def k0_cond2 (i : grid0.Coords) : BitVec 1 :=
  let arg2 : BitVec 32 := BitVec.ofNat 32 (i 2).val
  let c0_i32_11 : BitVec 32 := 0#32
  let v52 : BitVec 1 := Scalar.cmpi .ne arg2 c0_i32_11
  let v53 : BitVec 32 := Scalar.extui v52
  let c0_i32_12 : BitVec 32 := 0#32
  let v54 : BitVec 1 := Scalar.cmpi .ne v53 c0_i32_12
  v54

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  slices_S3x1024_o0_0_S1x1024 : S3x1024.Slices ![0, 0] S1x1024
  shapeCasts_S1x1024_S1024 : S1x1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  slices_S3x1024_o1_0_S1x1024 : S3x1024.Slices ![1, 0] S1x1024
  slices_S3x1024_o2_0_S1x1024 : S3x1024.Slices ![2, 0] S1x1024
  reduces_S1024x1024_S1024 : S1024x1024.Reduces [1] S1024
  reduces_S1024x1024_S1024_2 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S1x1x1024_S1024 : S1x1x1024.ShapeCasts S1024
  shapeCasts_S1024_S1x1x1024 : S1024.ShapeCasts S1x1x1024
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  k0_mult1_dvd : ∀ i : grid0.Coords, 128 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩
abbrev main_cst_11 : Ref sig .tc := ⟨.hbm, 39, rfl⟩
abbrev main_v25 : Ref sig .tc := ⟨.hbm, 40, rfl⟩
abbrev main_cst_12 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Conds.lean ====
/-
  The grid of the kernel is 8 × 4 × 4: a point is (b, n, m) — the cloud, the block of 1024 points of x, the block of
  1024 points of y — and its position is t = 16·b + 4·n + m. The body branches three times on the point:
  on m = 0 (the row minima are stored), on m ≠ 0 (the row minima are merged into the stored ones), and on
  n = 0 ∧ m = 0 (the column minima of the cloud are reset to +∞). Here each condition is decided over the grid
  in closed form, and the window of the row minima is shown never idle: one of the first two branches is always taken.
-/
import proofs.«161696_j11630771438180_2_alg».proof.Proof.Gen.Kernel.Frame
import proofs.«161696_j11630771438180_2_alg».proof.Proof.Gen.Kernel.Skeleton
import proofs.«161696_j11630771438180_2_alg».proof.Proof.Gen.Kernel.Points
import proofs.«161696_j11630771438180_2_alg».proof.Proof.Gen.Kernel.Launch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the block of y-points is the first (m = 0). -/
abbrev condFirstCol (i : grid0.Coords) : Prop := k0_cond1 i = 1#1
/-- The body's second branch: the block of y-points is a later one (m ≠ 0). -/
abbrev condLaterCol (i : grid0.Coords) : Prop := k0_cond2 i = 1#1
/-- The body's third branch, as the skeleton spells it: both blocks are the first (n = 0 and m = 0). -/
abbrev condFirstBoth (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- m = 0 exactly at the positions divisible by 4. -/
theorem hcondFirstCol : ∀ t : Fin cfg0.N, condFirstCol (grid0.coords t) ↔ t.val % 4 = 0 :=
  (by decide +kernel : ∀ t : Fin grid0.N, condFirstCol (grid0.coords t) ↔ t.val % 4 = 0)
/-- m ≠ 0 exactly at the others. -/
theorem hcondLaterCol : ∀ t : Fin cfg0.N, condLaterCol (grid0.coords t) ↔ ¬ t.val % 4 = 0 :=
  (by decide +kernel : ∀ t : Fin grid0.N, condLaterCol (grid0.coords t) ↔ ¬ t.val % 4 = 0)
/-- n = 0 and m = 0 exactly at the positions divisible by 16: the first point of a cloud. -/
theorem hcondFirstBoth : ∀ t : Fin cfg0.N, condFirstBoth (grid0.coords t) ↔ t.val % 16 = 0 :=
  (by decide +kernel : ∀ t : Fin grid0.N, condFirstBoth (grid0.coords t) ↔ t.val % 16 = 0)

/-- The window of the row minima is idle nowhere: at every m one of the two branches that store into it is taken. -/
theorem live_rows : ∀ i : grid0.Coords, cfg0.idle 2 i = false := by
  intro i
  have key : ∀ v : Fin 4,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by decide
  exact key (i 2)

/-- Each window's current staging memref at point `t`, as the pipeline passes it, and its wholeness. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Body

end
-- ==== Proof.Kernel.RunFirst.lean ====
/-
  The body at a cloud's first point (n = 0 and m = 0).
  There the body stores the tile's row minima into the row window, fills the column window with +∞ and then stores, into the
  slice of it that belongs to this block of y-points, the least of what it reads back there and the tile's column minima.
  Below: on whole staging buffers — the two inputs at their contents, the two outputs at anything — the body runs to its
  end, the inputs as they were, each output holding the pieces the run finds.
-/
import proofs.«161696_j11630771438180_2_alg».proof.Proof.Kernel.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at a cloud's first point, as pieces (last first), with the
    proof that the body runs to the continuation that holds them. -/
noncomputable def runFirst (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : condFirstCol i) (hc2 : ¬condLaterCol i) (hc3 : condFirstBoth i)
    (x0 : Vec F S1x3x1024 .f32) (x1 : Vec F S1x3x1024 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Body

end
-- ==== Proof.Kernel.RunRow.lean ====
/-
  The body at the first block of y-points of a later block of x-points (m = 0, n ≠ 0).
  There the body stores the tile's row minima into the row window and stores, into the slice of the column window that belongs
  to this block of y-points, the least of what that slice held and the tile's column minima: the rest of the column
  window stays as the earlier points of the cloud left it.
-/
import proofs.«161696_j11630771438180_2_alg».proof.Proof.Kernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at such a point, as pieces (last first) — the column window's
    over its running contents `xo3` —, with the proof that the body runs to the continuation that holds them. -/
noncomputable def runRow (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : condFirstCol i) (hc2 : ¬condLaterCol i) (hc3 : ¬condFirstBoth i)
    (x0 : Vec F S1x3x1024 .f32) (x1 : Vec F S1x3x1024 .f32) (xo3 : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.Kernel.RunLater.lean ====
/-
  The body at a later block of y-points (m ≠ 0).
  There the body stores, into the row window, the least of what the window held and the tile's row minima, and stores, into the
  slice of the column window that belongs to this block of y-points, the least of what that slice held and the tile's
  column minima.
-/
import proofs.«161696_j11630771438180_2_alg».proof.Proof.Kernel.RunRow

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at such a point, as pieces (last first) — over the running
    contents `xo2` of the row window and `xo3` of the column window —, with the proof that the body runs to the
    continuation that holds them. -/
noncomputable def runLater (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : ¬condFirstCol i) (hc2 : condLaterCol i) (hc3 : ¬condFirstBoth i)
    (x0 : Vec F S1x3x1024 .f32) (x1 : Vec F S1x3x1024 .f32) (xo2 : Vec F S1x1x1024 .f32) (xo3 : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.Kernel.Accum.lean ====
/-
  What the two output windows hold after each point of the grid, and the frame of the whole program.

  A point is t = 16·b + 4·n + m. The row window (1024 row minima of the block n of x-points of cloud b) is stored whole at
  m = 0 and merged by `min` at m = 1, 2, 3, then written back: so after the point it holds the pieces the point's run left,
  over what the point before left when m ≠ 0. The column window (the 4096 column minima of cloud b) is filled with +∞ at
  the cloud's first point and, at every point, its slice m is merged by `min` with the tile's column minima; it is written
  back after the cloud's last point. `outsAt` states this by recursion on the position; the proof data of the pipeline
  names it, the body obligation is the three runs, and the frame follows from the launch theorem for a region with host
  operations on both sides.
-/
import proofs.«161696_j11630771438180_2_alg».proof.Proof.Kernel.RunLater
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branches a point takes, from its position -/

theorem first_c1 (t : Fin cfg0.N) (h : t.val % 16 = 0) : condFirstCol (grid0.coords t) := (hcondFirstCol t).mpr (by omega)
theorem first_c2 (t : Fin cfg0.N) (h : t.val % 16 = 0) : ¬condLaterCol (grid0.coords t) := fun hh => (hcondLaterCol t).mp hh (by omega)
theorem first_c3 (t : Fin cfg0.N) (h : t.val % 16 = 0) : condFirstBoth (grid0.coords t) := (hcondFirstBoth t).mpr h
theorem row_c1 (t : Fin cfg0.N) (h4 : t.val % 4 = 0) : condFirstCol (grid0.coords t) := (hcondFirstCol t).mpr h4
theorem row_c2 (t : Fin cfg0.N) (h4 : t.val % 4 = 0) : ¬condLaterCol (grid0.coords t) := fun hh => (hcondLaterCol t).mp hh h4
theorem row_c3 (t : Fin cfg0.N) (h16 : ¬t.val % 16 = 0) : ¬condFirstBoth (grid0.coords t) := fun hh => h16 ((hcondFirstBoth t).mp hh)
theorem later_c1 (t : Fin cfg0.N) (h4 : ¬t.val % 4 = 0) : ¬condFirstCol (grid0.coords t) := fun hh => h4 ((hcondFirstCol t).mp hh)
theorem later_c2 (t : Fin cfg0.N) (h4 : ¬t.val % 4 = 0) : condLaterCol (grid0.coords t) := (hcondLaterCol t).mpr h4
theorem later_c3 (t : Fin cfg0.N) (h4 : ¬t.val % 4 = 0) : ¬condFirstBoth (grid0.coords t) := fun hh => h4 (by have := (hcondFirstBoth t).mp hh; omega)

/-! ## The run at a point, on the point's staging buffers and input blocks -/

/-- The pieces the run leaves at a cloud's first point. -/
def piecesFirst (c : Dev nD) (t : Fin cfg0.N) (h16 : t.val % 16 = 0) :=
  runFirst (F := F) c (grid0.coords t) (ms0 t) (hs0 t) (ms1 t) (hs1 t) (ms2 t) (hs2 t) (ms3 t) (hs3 t) (first_c1 t h16) (first_c2 t h16) (first_c3 t h16) (iblk m c 0 t) (iblk m c 1 t)
/-- The pieces the run leaves at the first block of y-points of a later block of x-points, over the column window's running contents. -/
def piecesRow (c : Dev nD) (t : Fin cfg0.N) (h4 : t.val % 4 = 0) (h16 : ¬t.val % 16 = 0) (xo3 : Vec F S1x1x4096 .f32) :=
  runRow (F := F) c (grid0.coords t) (ms0 t) (hs0 t) (ms1 t) (hs1 t) (ms2 t) (hs2 t) (ms3 t) (hs3 t) (row_c1 t h4) (row_c2 t h4) (row_c3 t h16) (iblk m c 0 t) (iblk m c 1 t) xo3
/-- The pieces the run leaves at a later block of y-points, over both windows' running contents. -/
def piecesLater (c : Dev nD) (t : Fin cfg0.N) (h4 : ¬t.val % 4 = 0) (xo2 : Vec F S1x1x1024 .f32) (xo3 : Vec F S1x1x4096 .f32) :=
  runLater (F := F) c (grid0.coords t) (ms0 t) (hs0 t) (ms1 t) (hs1 t) (ms2 t) (hs2 t) (ms3 t) (hs3 t) (later_c1 t h4) (later_c2 t h4) (later_c3 t h4) (iblk m c 0 t) (iblk m c 1 t) xo2 xo3

/-- What a slice store leaves in the column window's current buffer over its running contents `xo3`. -/
def colsOver (t : Fin cfg0.N) (xo3 : Vec F S1x1x4096 .f32) (L : List (View.Piece (Elt F) S1x1x4096 .f32)) : Vec F S1x1x4096 .f32 :=
  (ms3 t).view.read (Elt F) ((ms3 t).view.writes (Elt F) ((hs3 t).unread xo3) L)

/-! ## What the outputs hold after each point -/

/-- The row window's and the column window's contents after the body at position `n`. -/
def outsAt (c : Dev nD) : (n : ℕ) → n < cfg0.N → Vec F S1x1x1024 .f32 × Vec F S1x1x4096 .f32
  | 0, hn => (View.canon (piecesFirst m c ⟨0, hn⟩ (Nat.zero_mod _)).1.1, View.canon (piecesFirst m c ⟨0, hn⟩ (Nat.zero_mod _)).1.2)
  | n + 1, hn =>
    if h16 : (n + 1) % 16 = 0 then
      (View.canon (piecesFirst m c ⟨n + 1, hn⟩ h16).1.1, View.canon (piecesFirst m c ⟨n + 1, hn⟩ h16).1.2)
    else if h4 : (n + 1) % 4 = 0 then
      (View.canon (piecesRow m c ⟨n + 1, hn⟩ h4 h16 (outsAt c n (Nat.lt_of_succ_lt hn)).2).1.1,
        colsOver ⟨n + 1, hn⟩ (outsAt c n (Nat.lt_of_succ_lt hn)).2 (piecesRow m c ⟨n + 1, hn⟩ h4 h16 (outsAt c n (Nat.lt_of_succ_lt hn)).2).1.2)
    else
      (View.canon (piecesLater m c ⟨n + 1, hn⟩ h4 (outsAt c n (Nat.lt_of_succ_lt hn)).1 (outsAt c n (Nat.lt_of_succ_lt hn)).2).1.1,
        colsOver ⟨n + 1, hn⟩ (outsAt c n (Nat.lt_of_succ_lt hn)).2 (piecesLater m c ⟨n + 1, hn⟩ h4 (outsAt c n (Nat.lt_of_succ_lt hn)).1 (outsAt c n (Nat.lt_of_succ_lt hn)).2).1.2)

/-- What the point before `t` left (for a `t` that is not the first). -/
abbrev prev (c : Dev nD) (t : Fin cfg0.N) := outsAt m c (t.val - 1) (Nat.lt_of_le_of_lt (Nat.sub_le _ _) t.isLt)

theorem outsAt_first (c : Dev nD) (t : Fin cfg0.N) (h16 : t.val % 16 = 0) :
    outsAt m c t.val t.isLt = (View.canon (piecesFirst m c t h16).1.1, View.canon (piecesFirst m c t h16).1.2) := by
  obtain ⟨n, hn⟩ := t
  cases n with
  | zero => exact rfl
  | succ n => exact (dif_pos h16).trans rfl

theorem outsAt_row (c : Dev nD) (t : Fin cfg0.N) (h4 : t.val % 4 = 0) (h16 : ¬t.val % 16 = 0) :
    outsAt m c t.val t.isLt = (View.canon (piecesRow m c t h4 h16 (prev m c t).2).1.1,
      colsOver t (prev m c t).2 (piecesRow m c t h4 h16 (prev m c t).2).1.2) := by
  obtain ⟨n, hn⟩ := t
  cases n with
  | zero => exact (by exfalso; (try dsimp only at h16); exact absurd (Nat.zero_mod _) h16)
  | succ n => exact (dif_neg h16).trans ((dif_pos h4).trans rfl)

theorem outsAt_later (c : Dev nD) (t : Fin cfg0.N) (h4 : ¬t.val % 4 = 0) :
    outsAt m c t.val t.isLt = (View.canon (piecesLater m c t h4 (prev m c t).1 (prev m c t).2).1.1,
      colsOver t (prev m c t).2 (piecesLater m c t h4 (prev m c t).1 (prev m c t).2).1.2) := by
  obtain ⟨n, hn⟩ := t
  cases n with
  | zero => exact (by exfalso; (try dsimp only at h4); exact absurd (Nat.zero_mod _) h4)
  | succ n => exact (dif_neg (fun h : (n + 1) % 16 = 0 => h4 (by (try dsimp only); omega))).trans ((dif_neg h4).trans rfl)

/-! ## The row window's one whole-block store covers it; so do the column window's stores at a cloud's first point -/

theorem coverRowsFirst (c : Dev nD) (t : Fin cfg0.N) (h16 : t.val % 16 = 0) (y : S1x1x1024.Idx) :
    ∃ pc ∈ (piecesFirst m c t h16).1.1, y ∈ pc.1.set :=
  View.cover_of_tiledL (piecesFirst m c t h16).1.1 S1x1x1024.size (by unfold piecesFirst; sl_kernel_rfl) y
theorem coverRowsRow (c : Dev nD) (t : Fin cfg0.N) (h4 : t.val % 4 = 0) (h16 : ¬t.val % 16 = 0) (xo3 : Vec F S1x1x4096 .f32) (y : S1x1x1024.Idx) :
    ∃ pc ∈ (piecesRow m c t h4 h16 xo3).1.1, y ∈ pc.1.set :=
  View.cover_of_tiledL (piecesRow m c t h4 h16 xo3).1.1 S1x1x1024.size (by unfold piecesRow; sl_kernel_rfl) y
theorem coverRowsLater (c : Dev nD) (t : Fin cfg0.N) (h4 : ¬t.val % 4 = 0) (xo2 : Vec F S1x1x1024 .f32) (xo3 : Vec F S1x1x4096 .f32) (y : S1x1x1024.Idx) :
    ∃ pc ∈ (piecesLater m c t h4 xo2 xo3).1.1, y ∈ pc.1.set :=
  View.cover_of_tiledL (piecesLater m c t h4 xo2 xo3).1.1 S1x1x1024.size (by unfold piecesLater; sl_kernel_rfl) y
/-- The zero offset of a rank-3 store. -/
theorem off_zero3 : (![0, 0, 0] : Fin 3 → Nat) = fun _ => 0 := by
  funext a; match a with | ⟨0, _⟩ => rfl | ⟨1, _⟩ => rfl | ⟨2, _⟩ => rfl

theorem coverColsFirst (c : Dev nD) (t : Fin cfg0.N) (h16 : t.val % 16 = 0) (y : S1x1x4096.Idx) :
    ∃ pc ∈ (piecesFirst m c t h16).1.2, y ∈ pc.1.set := by
  unfold piecesFirst runFirst
  dsimp only
  sl_unfold_words
  exact ⟨_, List.mem_cons_of_mem _ (List.mem_singleton.mpr rfl), View.mem_set_unit_zero (S := S1x1x4096) off_zero3 inb_S1x1x4096_S1x1x4096_0_0_0 y⟩

end Cert.Kernel.Body

end
-- ==== Proof.Kernel.Frame.lean ====
/-
  The proof data of the pipeline, the body obligation at every point, and the frame of the program.
-/
import proofs.«161696_j11630771438180_2_alg».proof.Proof.Kernel.Accum

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t` each
    input's buffer at its block and the two outputs' at `outsAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At m = 0 the row window's buffer is fresh: the grid's first point, or the point before wrote it back. -/
theorem before2_fresh (c : Dev nD) (t : Fin cfg0.N) (h4 : t.val % 4 = 0) (d) : (dats m 0 c).before 2 t d = d := by
  by_cases hz : t.val = 0
  · exact Dat.before_out_reset _ 2 rfl t (.inl hz) d
  · exact Dat.before_out_reset _ 2 rfl t (.inr ⟨hz, (flush0_2 _).mpr (by dsimp only; omega)⟩) d
/-- At m ≠ 0 it holds what the point before left. -/
theorem before2_kept (c : Dev nD) (t : Fin cfg0.N) (h4 : ¬t.val % 4 = 0) (d) : (dats m 0 c).before 2 t d = (prev m c t).1 := by
  rw [Dat.before_out_kept _ 2 rfl t (by omega) (Bool.eq_false_iff.mpr fun h => by have := (flush0_2 _).mp h; dsimp only at this; omega)
    live_rows (fun _ _ => rfl)]
  dsimp only [dats]
/-- At a cloud's first point the column window's buffer is fresh. -/
theorem before3_fresh (c : Dev nD) (t : Fin cfg0.N) (h16 : t.val % 16 = 0) (d) : (dats m 0 c).before 3 t d = d := by
  by_cases hz : t.val = 0
  · exact Dat.before_out_reset _ 3 rfl t (.inl hz) d
  · exact Dat.before_out_reset _ 3 rfl t (.inr ⟨hz, (flush0_3 _).mpr (by dsimp only; omega)⟩) d
/-- At every other point it holds what the point before left. -/
theorem before3_kept (c : Dev nD) (t : Fin cfg0.N) (h16 : ¬t.val % 16 = 0) (d) : (dats m 0 c).before 3 t d = (prev m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (outsAt m c t.val t.isLt).1 := by
  rw [← after2 m c t]; unfold Dat.leavesExact; rw [live_rows (grid0.coords t)]
theorem leaves3 (c : Dev nD) (t : Fin cfg0.N) : (dats m 0 c).leavesExact 3 t = owns (c : Thread nD τ) (ms3 t) fullShare (outsAt m c t.val t.isLt).2 := by
  rw [← after3 m c t]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h16 : t.val % 16 = 0
  · have h4 : t.val % 4 = 0 := by omega
    rw [outsAt_first m c t h16]
    simp only [before2_fresh m c t h4, before3_fresh m c t h16]
    iintro ⟨HΦ, Ho, ⟨%d0, H0⟩, ⟨%d1, H1⟩, ⟨%d2, H2⟩, ⟨%d3, H3⟩⟩
    iapply ((piecesFirst m c t h16).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (coverRowsFirst m c t h16)
    · unfold owns; iexists _; isplitr
      swap; · iexact H3
      ipureintro; exact View.read_writes_eq_canon _ _ _ (coverColsFirst m c t h16)
  · by_cases h4 : t.val % 4 = 0
    · rw [outsAt_row m c t h4 h16]
      simp only [before2_fresh m c t h4, before3_kept m c t h16]
      iintro ⟨HΦ, Ho, ⟨%d0, H0⟩, ⟨%d1, H1⟩, ⟨%d2, H2⟩, ⟨%d3, H3⟩⟩
      iapply ((piecesRow m c t h4 h16 (prev m c t).2).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (coverRowsRow m c t h4 h16 _)
      · unfold owns; iexists _; isplitr
        swap; · iexact H3
        ipureintro; rfl
    · rw [outsAt_later m c t h4]
      simp only [before2_kept m c t h4, before3_kept m c t h16]
      iintro ⟨HΦ, Ho, ⟨%d0, H0⟩, ⟨%d1, H1⟩, ⟨%d2, H2⟩, ⟨%d3, H3⟩⟩
      iapply ((piecesLater m c t h4 (prev m c t).1 (prev m c t).2).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (coverRowsLater m c t h4 _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Conds.lean ====
/-
  The grid of the kernel is 8 × 4 × 4: a point is (b, n, m) — the cloud, the block of 1024 points of x, the block of
  1024 points of y — and its position is t = 16·b + 4·n + m. The body branches three times on the point:
  on m = 0 (the row minima are stored), on m ≠ 0 (the row minima are merged into the stored ones), and on
  n = 0 ∧ m = 0 (the column minima of the cloud are reset to +∞). Here each condition is decided over the grid
  in closed form, and the window of the row minima is shown never idle: one of the first two branches is always taken.
-/
import proofs.«161696_j11630771438180_2_alg».proof.Proof.Gen.KernelIdeal.Frame
import proofs.«161696_j11630771438180_2_alg».proof.Proof.Gen.KernelIdeal.Skeleton
import proofs.«161696_j11630771438180_2_alg».proof.Proof.Gen.KernelIdeal.Points
import proofs.«161696_j11630771438180_2_alg».proof.Proof.Gen.KernelIdeal.Launch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the block of y-points is the first (m = 0). -/
abbrev condFirstCol (i : grid0.Coords) : Prop := k0_cond1 i = 1#1
/-- The body's second branch: the block of y-points is a later one (m ≠ 0). -/
abbrev condLaterCol (i : grid0.Coords) : Prop := k0_cond2 i = 1#1
/-- The body's third branch, as the skeleton spells it: both blocks are the first (n = 0 and m = 0). -/
abbrev condFirstBoth (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- m = 0 exactly at the positions divisible by 4. -/
theorem hcondFirstCol : ∀ t : Fin cfg0.N, condFirstCol (grid0.coords t) ↔ t.val % 4 = 0 :=
  (by decide +kernel : ∀ t : Fin grid0.N, condFirstCol (grid0.coords t) ↔ t.val % 4 = 0)
/-- m ≠ 0 exactly at the others. -/
theorem hcondLaterCol : ∀ t : Fin cfg0.N, condLaterCol (grid0.coords t) ↔ ¬ t.val % 4 = 0 :=
  (by decide +kernel : ∀ t : Fin grid0.N, condLaterCol (grid0.coords t) ↔ ¬ t.val % 4 = 0)
/-- n = 0 and m = 0 exactly at the positions divisible by 16: the first point of a cloud. -/
theorem hcondFirstBoth : ∀ t : Fin cfg0.N, condFirstBoth (grid0.coords t) ↔ t.val % 16 = 0 :=
  (by decide +kernel : ∀ t : Fin grid0.N, condFirstBoth (grid0.coords t) ↔ t.val % 16 = 0)

/-- The window of the row minima is idle nowhere: at every m one of the two branches that store into it is taken. -/
theorem live_rows : ∀ i : grid0.Coords, cfg0.idle 2 i = false := by
  intro i
  have key : ∀ v : Fin 4,
      (!(Scalar.cmpi .ne (Scalar.extui (Scalar.cmpi .eq (BitVec.ofNat 32 v.val) 0#32)) 0#32 == 1#1)
        && !(Scalar.cmpi .ne (Scalar.extui (Scalar.cmpi .ne (BitVec.ofNat 32 v.val) 0#32)) 0#32 == 1#1)) = false := by decide
  exact key (i 2)

/-- Each window's current staging memref at point `t`, as the pipeline passes it, and its wholeness. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Body

end
-- ==== Proof.KernelIdeal.RunFirst.lean ====
/-
  The body at a cloud's first point (n = 0 and m = 0).
  There the body stores the tile's row minima into the row window, fills the column window with +∞ and then stores, into the
  slice of it that belongs to this block of y-points, the least of what it reads back there and the tile's column minima.
  Below: on whole staging buffers — the two inputs at their contents, the two outputs at anything — the body runs to its
  end, the inputs as they were, each output holding the pieces the run finds.
-/
import proofs.«161696_j11630771438180_2_alg».proof.Proof.KernelIdeal.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at a cloud's first point, as pieces (last first), with the
    proof that the body runs to the continuation that holds them. -/
noncomputable def runFirst (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : condFirstCol i) (hc2 : ¬condLaterCol i) (hc3 : condFirstBoth i)
    (x0 : Vec F S1x3x1024 .f32) (x1 : Vec F S1x3x1024 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Body

end
-- ==== Proof.KernelIdeal.RunRow.lean ====
/-
  The body at the first block of y-points of a later block of x-points (m = 0, n ≠ 0).
  There the body stores the tile's row minima into the row window and stores, into the slice of the column window that belongs
  to this block of y-points, the least of what that slice held and the tile's column minima: the rest of the column
  window stays as the earlier points of the cloud left it.
-/
import proofs.«161696_j11630771438180_2_alg».proof.Proof.KernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at such a point, as pieces (last first) — the column window's
    over its running contents `xo3` —, with the proof that the body runs to the continuation that holds them. -/
noncomputable def runRow (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : condFirstCol i) (hc2 : ¬condLaterCol i) (hc3 : ¬condFirstBoth i)
    (x0 : Vec F S1x3x1024 .f32) (x1 : Vec F S1x3x1024 .f32) (xo3 : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.KernelIdeal.RunLater.lean ====
/-
  The body at a later block of y-points (m ≠ 0).
  There the body stores, into the row window, the least of what the window held and the tile's row minima, and stores, into the
  slice of the column window that belongs to this block of y-points, the least of what that slice held and the tile's
  column minima.
-/
import proofs.«161696_j11630771438180_2_alg».proof.Proof.KernelIdeal.RunRow

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two output buffers at such a point, as pieces (last first) — over the running
    contents `xo2` of the row window and `xo3` of the column window —, with the proof that the body runs to the
    continuation that holds them. -/
noncomputable def runLater (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (hc1 : ¬condFirstCol i) (hc2 : condLaterCol i) (hc3 : ¬condFirstBoth i)
    (x0 : Vec F S1x3x1024 .f32) (x1 : Vec F S1x3x1024 .f32) (xo2 : Vec F S1x1x1024 .f32) (xo3 : Vec F S1x1x4096 .f32) :
    { L : List (View.Piece (Elt F) S1x1x1024 .f32) × List (View.Piece (Elt F) S1x1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread xo3) L.2)) -∗ K ⟨⟩))
          ⊢ wp frame (wpE (defs₀ (F := F)) Variants.none c none) E (cc0__chamfer_kernel i arg3 harg3 arg4 harg4 arg5 harg5 arg6 harg6) K } := by
  refine ⟨(?_, ?_), fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.KernelIdeal.Accum.lean ====
/-
  What the two output windows hold after each point of the grid, and the frame of the whole program.

  A point is t = 16·b + 4·n + m. The row window (1024 row minima of the block n of x-points of cloud b) is stored whole at
  m = 0 and merged by `min` at m = 1, 2, 3, then written back: so after the point it holds the pieces the point's run left,
  over what the point before left when m ≠ 0. The column window (the 4096 column minima of cloud b) is filled with +∞ at
  the cloud's first point and, at every point, its slice m is merged by `min` with the tile's column minima; it is written
  back after the cloud's last point. `outsAt` states this by recursion on the position; the proof data of the pipeline
  names it, the body obligation is the three runs, and the frame follows from the launch theorem for a region with host
  operations on both sides.
-/
import proofs.«161696_j11630771438180_2_alg».proof.Proof.KernelIdeal.RunLater
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branches a point takes, from its position -/

theorem first_c1 (t : Fin cfg0.N) (h : t.val % 16 = 0) : condFirstCol (grid0.coords t) := (hcondFirstCol t).mpr (by omega)
theorem first_c2 (t : Fin cfg0.N) (h : t.val % 16 = 0) : ¬condLaterCol (grid0.coords t) := fun hh => (hcondLaterCol t).mp hh (by omega)
theorem first_c3 (t : Fin cfg0.N) (h : t.val % 16 = 0) : condFirstBoth (grid0.coords t) := (hcondFirstBoth t).mpr h
theorem row_c1 (t : Fin cfg0.N) (h4 : t.val % 4 = 0) : condFirstCol (grid0.coords t) := (hcondFirstCol t).mpr h4
theorem row_c2 (t : Fin cfg0.N) (h4 : t.val % 4 = 0) : ¬condLaterCol (grid0.coords t) := fun hh => (hcondLaterCol t).mp hh h4
theorem row_c3 (t : Fin cfg0.N) (h16 : ¬t.val % 16 = 0) : ¬condFirstBoth (grid0.coords t) := fun hh => h16 ((hcondFirstBoth t).mp hh)
theorem later_c1 (t : Fin cfg0.N) (h4 : ¬t.val % 4 = 0) : ¬condFirstCol (grid0.coords t) := fun hh => h4 ((hcondFirstCol t).mp hh)
theorem later_c2 (t : Fin cfg0.N) (h4 : ¬t.val % 4 = 0) : condLaterCol (grid0.coords t) := (hcondLaterCol t).mpr h4
theorem later_c3 (t : Fin cfg0.N) (h4 : ¬t.val % 4 = 0) : ¬condFirstBoth (grid0.coords t) := fun hh => h4 (by have := (hcondFirstBoth t).mp hh; omega)

/-! ## The run at a point, on the point's staging buffers and input blocks -/

/-- The pieces the run leaves at a cloud's first point. -/
def piecesFirst (c : Dev nD) (t : Fin cfg0.N) (h16 : t.val % 16 = 0) :=
  runFirst (F := F) c (grid0.coords t) (ms0 t) (hs0 t) (ms1 t) (hs1 t) (ms2 t) (hs2 t) (ms3 t) (hs3 t) (first_c1 t h16) (first_c2 t h16) (first_c3 t h16) (iblk m c 0 t) (iblk m c 1 t)
/-- The pieces the run leaves at the first block of y-points of a later block of x-points, over the column window's running contents. -/
def piecesRow (c : Dev nD) (t : Fin cfg0.N) (h4 : t.val % 4 = 0) (h16 : ¬t.val % 16 = 0) (xo3 : Vec F S1x1x4096 .f32) :=
  runRow (F := F) c (grid0.coords t) (ms0 t) (hs0 t) (ms1 t) (hs1 t) (ms2 t) (hs2 t) (ms3 t) (hs3 t) (row_c1 t h4) (row_c2 t h4) (row_c3 t h16) (iblk m c 0 t) (iblk m c 1 t) xo3
/-- The pieces the run leaves at a later block of y-points, over both windows' running contents. -/
def piecesLater (c : Dev nD) (t : Fin cfg0.N) (h4 : ¬t.val % 4 = 0) (xo2 : Vec F S1x1x1024 .f32) (xo3 : Vec F S1x1x4096 .f32) :=
  runLater (F := F) c (grid0.coords t) (ms0 t) (hs0 t) (ms1 t) (hs1 t) (ms2 t) (hs2 t) (ms3 t) (hs3 t) (later_c1 t h4) (later_c2 t h4) (later_c3 t h4) (iblk m c 0 t) (iblk m c 1 t) xo2 xo3

/-- What a slice store leaves in the column window's current buffer over its running contents `xo3`. -/
def colsOver (t : Fin cfg0.N) (xo3 : Vec F S1x1x4096 .f32) (L : List (View.Piece (Elt F) S1x1x4096 .f32)) : Vec F S1x1x4096 .f32 :=
  (ms3 t).view.read (Elt F) ((ms3 t).view.writes (Elt F) ((hs3 t).unread xo3) L)

/-! ## What the outputs hold after each point -/

/-- The row window's and the column window's contents after the body at position `n`. -/
def outsAt (c : Dev nD) : (n : ℕ) → n < cfg0.N → Vec F S1x1x1024 .f32 × Vec F S1x1x4096 .f32
  | 0, hn => (View.canon (piecesFirst m c ⟨0, hn⟩ (Nat.zero_mod _)).1.1, View.canon (piecesFirst m c ⟨0, hn⟩ (Nat.zero_mod _)).1.2)
  | n + 1, hn =>
    if h16 : (n + 1) % 16 = 0 then
      (View.canon (piecesFirst m c ⟨n + 1, hn⟩ h16).1.1, View.canon (piecesFirst m c ⟨n + 1, hn⟩ h16).1.2)
    else if h4 : (n + 1) % 4 = 0 then
      (View.canon (piecesRow m c ⟨n + 1, hn⟩ h4 h16 (outsAt c n (Nat.lt_of_succ_lt hn)).2).1.1,
        colsOver ⟨n + 1, hn⟩ (outsAt c n (Nat.lt_of_succ_lt hn)).2 (piecesRow m c ⟨n + 1, hn⟩ h4 h16 (outsAt c n (Nat.lt_of_succ_lt hn)).2).1.2)
    else
      (View.canon (piecesLater m c ⟨n + 1, hn⟩ h4 (outsAt c n (Nat.lt_of_succ_lt hn)).1 (outsAt c n (Nat.lt_of_succ_lt hn)).2).1.1,
        colsOver ⟨n + 1, hn⟩ (outsAt c n (Nat.lt_of_succ_lt hn)).2 (piecesLater m c ⟨n + 1, hn⟩ h4 (outsAt c n (Nat.lt_of_succ_lt hn)).1 (outsAt c n (Nat.lt_of_succ_lt hn)).2).1.2)

/-- What the point before `t` left (for a `t` that is not the first). -/
abbrev prev (c : Dev nD) (t : Fin cfg0.N) := outsAt m c (t.val - 1) (Nat.lt_of_le_of_lt (Nat.sub_le _ _) t.isLt)

theorem outsAt_first (c : Dev nD) (t : Fin cfg0.N) (h16 : t.val % 16 = 0) :
    outsAt m c t.val t.isLt = (View.canon (piecesFirst m c t h16).1.1, View.canon (piecesFirst m c t h16).1.2) := by
  obtain ⟨n, hn⟩ := t
  cases n with
  | zero => exact rfl
  | succ n => exact (dif_pos h16).trans rfl

theorem outsAt_row (c : Dev nD) (t : Fin cfg0.N) (h4 : t.val % 4 = 0) (h16 : ¬t.val % 16 = 0) :
    outsAt m c t.val t.isLt = (View.canon (piecesRow m c t h4 h16 (prev m c t).2).1.1,
      colsOver t (prev m c t).2 (piecesRow m c t h4 h16 (prev m c t).2).1.2) := by
  obtain ⟨n, hn⟩ := t
  cases n with
  | zero => exact (by exfalso; (try dsimp only at h16); exact absurd (Nat.zero_mod _) h16)
  | succ n => exact (dif_neg h16).trans ((dif_pos h4).trans rfl)

theorem outsAt_later (c : Dev nD) (t : Fin cfg0.N) (h4 : ¬t.val % 4 = 0) :
    outsAt m c t.val t.isLt = (View.canon (piecesLater m c t h4 (prev m c t).1 (prev m c t).2).1.1,
      colsOver t (prev m c t).2 (piecesLater m c t h4 (prev m c t).1 (prev m c t).2).1.2) := by
  obtain ⟨n, hn⟩ := t
  cases n with
  | zero => exact (by exfalso; (try dsimp only at h4); exact absurd (Nat.zero_mod _) h4)
  | succ n => exact (dif_neg (fun h : (n + 1) % 16 = 0 => h4 (by (try dsimp only); omega))).trans ((dif_neg h4).trans rfl)

/-! ## The row window's one whole-block store covers it; so do the column window's stores at a cloud's first point -/

theorem coverRowsFirst (c : Dev nD) (t : Fin cfg0.N) (h16 : t.val % 16 = 0) (y : S1x1x1024.Idx) :
    ∃ pc ∈ (piecesFirst m c t h16).1.1, y ∈ pc.1.set :=
  View.cover_of_tiledL (piecesFirst m c t h16).1.1 S1x1x1024.size (by unfold piecesFirst; sl_kernel_rfl) y
theorem coverRowsRow (c : Dev nD) (t : Fin cfg0.N) (h4 : t.val % 4 = 0) (h16 : ¬t.val % 16 = 0) (xo3 : Vec F S1x1x4096 .f32) (y : S1x1x1024.Idx) :
    ∃ pc ∈ (piecesRow m c t h4 h16 xo3).1.1, y ∈ pc.1.set :=
  View.cover_of_tiledL (piecesRow m c t h4 h16 xo3).1.1 S1x1x1024.size (by unfold piecesRow; sl_kernel_rfl) y
theorem coverRowsLater (c : Dev nD) (t : Fin cfg0.N) (h4 : ¬t.val % 4 = 0) (xo2 : Vec F S1x1x1024 .f32) (xo3 : Vec F S1x1x4096 .f32) (y : S1x1x1024.Idx) :
    ∃ pc ∈ (piecesLater m c t h4 xo2 xo3).1.1, y ∈ pc.1.set :=
  View.cover_of_tiledL (piecesLater m c t h4 xo2 xo3).1.1 S1x1x1024.size (by unfold piecesLater; sl_kernel_rfl) y
/-- The zero offset of a rank-3 store. -/
theorem off_zero3 : (![0, 0, 0] : Fin 3 → Nat) = fun _ => 0 := by
  funext a; match a with | ⟨0, _⟩ => rfl | ⟨1, _⟩ => rfl | ⟨2, _⟩ => rfl

theorem coverColsFirst (c : Dev nD) (t : Fin cfg0.N) (h16 : t.val % 16 = 0) (y : S1x1x4096.Idx) :
    ∃ pc ∈ (piecesFirst m c t h16).1.2, y ∈ pc.1.set := by
  unfold piecesFirst runFirst
  dsimp only
  sl_unfold_words
  exact ⟨_, List.mem_cons_of_mem _ (List.mem_singleton.mpr rfl), View.mem_set_unit_zero (S := S1x1x4096) off_zero3 inb_S1x1x4096_S1x1x4096_0_0_0 y⟩

end Cert.KernelIdeal.Body

end
-- ==== Proof.KernelIdeal.Frame.lean ====
/-
  The proof data of the pipeline, the body obligation at every point, and the frame of the program.
-/
import proofs.«161696_j11630771438180_2_alg».proof.Proof.KernelIdeal.Accum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t` each
    input's buffer at its block and the two outputs' at `outsAt`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At m = 0 the row window's buffer is fresh: the grid's first point, or the point before wrote it back. -/
theorem before2_fresh (c : Dev nD) (t : Fin cfg0.N) (h4 : t.val % 4 = 0) (d) : (dats m 0 c).before 2 t d = d := by
  by_cases hz : t.val = 0
  · exact Dat.before_out_reset _ 2 rfl t (.inl hz) d
  · exact Dat.before_out_reset _ 2 rfl t (.inr ⟨hz, (flush0_2 _).mpr (by dsimp only; omega)⟩) d
/-- At m ≠ 0 it holds what the point before left. -/
theorem before2_kept (c : Dev nD) (t : Fin cfg0.N) (h4 : ¬t.val % 4 = 0) (d) : (dats m 0 c).before 2 t d = (prev m c t).1 := by
  rw [Dat.before_out_kept _ 2 rfl t (by omega) (Bool.eq_false_iff.mpr fun h => by have := (flush0_2 _).mp h; dsimp only at this; omega)
    live_rows (fun _ _ => rfl)]
  dsimp only [dats]
/-- At a cloud's first point the column window's buffer is fresh. -/
theorem before3_fresh (c : Dev nD) (t : Fin cfg0.N) (h16 : t.val % 16 = 0) (d) : (dats m 0 c).before 3 t d = d := by
  by_cases hz : t.val = 0
  · exact Dat.before_out_reset _ 3 rfl t (.inl hz) d
  · exact Dat.before_out_reset _ 3 rfl t (.inr ⟨hz, (flush0_3 _).mpr (by dsimp only; omega)⟩) d
/-- At every other point it holds what the point before left. -/
theorem before3_kept (c : Dev nD) (t : Fin cfg0.N) (h16 : ¬t.val % 16 = 0) (d) : (dats m 0 c).before 3 t d = (prev m c t).2 := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (outsAt m c t.val t.isLt).1 := by
  rw [← after2 m c t]; unfold Dat.leavesExact; rw [live_rows (grid0.coords t)]
theorem leaves3 (c : Dev nD) (t : Fin cfg0.N) : (dats m 0 c).leavesExact 3 t = owns (c : Thread nD τ) (ms3 t) fullShare (outsAt m c t.val t.isLt).2 := by
  rw [← after3 m c t]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h16 : t.val % 16 = 0
  · have h4 : t.val % 4 = 0 := by omega
    rw [outsAt_first m c t h16]
    simp only [before2_fresh m c t h4, before3_fresh m c t h16]
    iintro ⟨HΦ, Ho, ⟨%d0, H0⟩, ⟨%d1, H1⟩, ⟨%d2, H2⟩, ⟨%d3, H3⟩⟩
    iapply ((piecesFirst m c t h16).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (coverRowsFirst m c t h16)
    · unfold owns; iexists _; isplitr
      swap; · iexact H3
      ipureintro; exact View.read_writes_eq_canon _ _ _ (coverColsFirst m c t h16)
  · by_cases h4 : t.val % 4 = 0
    · rw [outsAt_row m c t h4 h16]
      simp only [before2_fresh m c t h4, before3_kept m c t h16]
      iintro ⟨HΦ, Ho, ⟨%d0, H0⟩, ⟨%d1, H1⟩, ⟨%d2, H2⟩, ⟨%d3, H3⟩⟩
      iapply ((piecesRow m c t h4 h16 (prev m c t).2).2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (coverRowsRow m c t h4 h16 _)
      · unfold owns; iexists _; isplitr
        swap; · iexact H3
        ipureintro; rfl
    · rw [outsAt_later m c t h4]
      simp only [before2_kept m c t h4, before3_kept m c t h16]
      iintro ⟨HΦ, Ho, ⟨%d0, H0⟩, ⟨%d1, H1⟩, ⟨%d2, H2⟩, ⟨%d3, H3⟩⟩
      iapply ((piecesLater m c t h4 (prev m c t).1 (prev m c t).2).2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_eq_canon _ _ _ (coverRowsLater m c t h4 _ _)
      · unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The Chamfer loss as one function of the two point clouds, over the extended reals.

  For a batch of 8 clouds of 4096 points in three coordinates each, x and y, the clamped squared distance of
  point n of x and point m of y is  d(b,n,m) = max (|x_n|² + |y_m|² - 2 · ⟨x_n, y_m⟩) 0.
  `rowMin` is, for each point of x, the least such distance over the points of y; `colMin` is, for each point of y, the
  least over the points of x. The loss is the mean over the batch of the mean of `rowMin` plus the mean over the batch of
  the mean of `colMin` (`meanOfMeans`).
  The three float words that appear (2, 0, +∞) are kept as words: both programs spell them the same way.
-/
import Idealize.ShloMosaic.PureOps
import Idealize.ShloMosaic.PureOps.Ideal
import Idealize.ShloMosaic.Lib.ValueIdx

noncomputable section

namespace Cert.Chamfer

open Idealize.ShloMosaic Idealize.ShloMosaic.ValueIdx

/-- A batch of 8 clouds of 4096 points with 3 coordinates. -/
abbrev Pts : Shape := ⟨3, ![8, 4096, 3]⟩
/-- One extended real per point of a batch of clouds. -/
abbrev Mat : Shape := ⟨2, ![8, 4096]⟩
abbrev Vec8 : Shape := ⟨1, ![8]⟩
abbrev Sc : Shape := ⟨0, ![]⟩

/-- The words 2, 0 and +∞ read as extended reals. -/
abbrev two : Ideal .f32 := Ideal.ofBits .f32 0x40000000#32
abbrev zero : Ideal .f32 := Ideal.ofBits .f32 0x00000000#32
abbrev top : Ideal .f32 := Ideal.ofBits .f32 0x7F800000#32

/-- The clamped squared distance of point `n` of cloud `b` of `x` and point `m` of cloud `b` of `y`:
    max (|x_n|² + |y_m|² - 2 · ⟨x_n, y_m⟩) 0. -/
def dist (x y : FVec Ideal Pts .f32) (b : Fin 8) (n m : Fin 4096) : Ideal .f32 :=
  max (((∑ k : Fin 3, x (ix3 b n k) * x (ix3 b n k)) + (∑ k : Fin 3, y (ix3 b m k) * y (ix3 b m k)))
        - two * (∑ k : Fin 3, x (ix3 b n k) * y (ix3 b m k))) zero

/-- For each point of `x`: the least clamped squared distance to a point of `y` (a fold of `min` from +∞). -/
def rowMin (x y : FVec Ideal Pts .f32) : FVec Ideal Mat .f32 := fun j =>
  (Finset.univ : Finset (Fin 4096)).fold min top (fun m => dist x y (j 0) (j 1) m)

/-- For each point of `y`: the least clamped squared distance to a point of `x`. -/
def colMin (x y : FVec Ideal Pts .f32) : FVec Ideal Mat .f32 := fun j =>
  (Finset.univ : Finset (Fin 4096)).fold min top (fun n => dist x y (j 0) n (j 1))

/-- The mean over the batch of the per-cloud mean of `R`, plus the same of `C`: each mean a sum from the word 0 divided by
    the count's word (4096, then 8). The shape facts are the programs' own; any proofs of them give the same function. -/
def meanOfMeans (hr : Mat.ReducesTo [1] Vec8) (h0 : 0 < Sc.numel) (hb : Sc.BroadcastsInDim Vec8 (![] : Fin 0 → Fin Vec8.rank))
    (hr0 : Vec8.ReducesTo [0] Sc) (R C : FVec Ideal Mat .f32) : FVec Ideal Sc .f32 :=
  addf
    (Host.divf (F := Ideal)
      (Host.reduceAdd (F := Ideal)
        (Host.divf (F := Ideal) (Host.reduceAdd (F := Ideal) R (constant (F := Ideal) Sc .f32 0x00000000#32) hr h0)
          (broadcastInDim Vec8 ![] hb (constant (F := Ideal) Sc .f32 0x45800000#32)))
        (constant (F := Ideal) Sc .f32 0x00000000#32) hr0 h0)
      (constant (F := Ideal) Sc .f32 0x41000000#32))
    (Host.divf (F := Ideal)
      (Host.reduceAdd (F := Ideal)
        (Host.divf (F := Ideal) (Host.reduceAdd (F := Ideal) C (constant (F := Ideal) Sc .f32 0x00000000#32) hr h0)
          (broadcastInDim Vec8 ![] hb (constant (F := Ideal) Sc .f32 0x45800000#32)))
        (constant (F := Ideal) Sc .f32 0x00000000#32) hr0 h0)
      (constant (F := Ideal) Sc .f32 0x41000000#32))

end Cert.Chamfer

end
-- ==== Proof.KernelIdeal.Arrays.lean ====
/-
  The two output arrays after the run.

  The row window's block at grid point t = 16·b + 4·nb + mb is the 1024 entries (b, 0, 1024·nb + r) of the row array and is
  written back at mb = 3; the column window's block is the 4096 entries (b, 0, ·) of the column array and is written back at
  the cloud's last point t = 16·b + 15. Every entry of either array is in exactly such a block, so once the windows hold the
  row and the column minima at those points (the hypotheses `hrows`, `hcols`), the arrays hold them everywhere.
-/
import proofs.«161696_j11630771438180_2_alg».proof.Proof.KernelIdeal.Frame
import proofs.«161696_j11630771438180_2_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Rounds
open Idealize.ShloMosaic.Pipeline (Dat Cfg Window)

variable (m : (ℓ : Loc nD τ sig) → Buf (Elt Ideal) ℓ)

namespace Arrays

/-- The grid has 128 points. -/
theorem t_lt (t : Fin cfg0.N) : t.val < 128 := lt_of_lt_of_eq t.isLt N_0

/-- The two output windows' block indices at grid point t = 16·b + 4·nb + mb: (b, 0, nb) and (b, 0, 0). -/
theorem idx_facts : ∀ t : Fin cfg0.N, win0_2.index t (0 : Fin 3) = t.val / 16 ∧ win0_2.index t (1 : Fin 3) = 0
    ∧ win0_2.index t (2 : Fin 3) = (t.val / 4) % 4
    ∧ win0_3.index t (0 : Fin 3) = t.val / 16 ∧ win0_3.index t (1 : Fin 3) = 0
    ∧ win0_3.index t (2 : Fin 3) = 0 :=
  (by decide +kernel : ∀ t : Fin grid0.N, _)

/-- An index of the row array is in point t's block iff each coordinate is in the block's range on its axis. -/
theorem mem_blk2 (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v2_0).slice (win0_2.rect t)).set ↔ _
  rw [View.set_slice_whole, Rect.mem_set_unit]
  exact Iff.rfl

/-- The same for the column array. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v2_1).slice (win0_3.rect t)).set ↔ _
  rw [View.set_slice_whole, Rect.mem_set_unit]
  exact Iff.rfl

/-- Every index (b, 0, n) of the row array is in the block written back at the point 16·b + 4·(n / 1024) + 3. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : 16 * (i 0).val + 4 * ((i 2).val / 1024) + 3 < cfg0.N := by rw [show cfg0.N = 128 from N_0]; omega
  refine ⟨⟨16 * (i 0).val + 4 * ((i 2).val / 1024) + 3, hN⟩, (flush0_2 _).mpr (by show (16 * (i 0).val + 4 * ((i 2).val / 1024) + 3) % 4 = 3; omega), ?_⟩
  rw [mem_blk2]
  obtain ⟨e0, e1, e2, -⟩ := idx_facts ⟨16 * (i 0).val + 4 * ((i 2).val / 1024) + 3, hN⟩
  have e0' : win0_2.index ⟨16 * (i 0).val + 4 * ((i 2).val / 1024) + 3, hN⟩ (0 : Fin 3) = (16 * (i 0).val + 4 * ((i 2).val / 1024) + 3) / 16 := e0
  have e2' : win0_2.index ⟨16 * (i 0).val + 4 * ((i 2).val / 1024) + 3, hN⟩ (2 : Fin 3) = ((16 * (i 0).val + 4 * ((i 2).val / 1024) + 3) / 4) % 4 := e2
  intro a
  match a with
  | ⟨0, _⟩ =>
    show win0_2.index _ (0 : Fin 3) * 1 ≤ (i 0).val ∧ (i 0).val < win0_2.index _ (0 : Fin 3) * 1 + 1
    rw [e0']; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1024 ≤ (i 2).val ∧ (i 2).val < win0_2.index _ (2 : Fin 3) * 1024 + 1024
    rw [e2']; omega

/-- Every index (b, 0, n) of the column array is in the block written back at the point 16·b + 15. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : 16 * (i 0).val + 15 < cfg0.N := by rw [show cfg0.N = 128 from N_0]; omega
  refine ⟨⟨16 * (i 0).val + 15, hN⟩, (flush0_3 _).mpr (by show (16 * (i 0).val + 15) % 16 = 15; omega), ?_⟩
  rw [mem_blk3]
  obtain ⟨-, -, -, e0, e1, e2⟩ := idx_facts ⟨16 * (i 0).val + 15, hN⟩
  have e0' : win0_3.index ⟨16 * (i 0).val + 15, hN⟩ (0 : Fin 3) = (16 * (i 0).val + 15) / 16 := e0
  intro a
  match a with
  | ⟨0, _⟩ =>
    show win0_3.index _ (0 : Fin 3) * 1 ≤ (i 0).val ∧ (i 0).val < win0_3.index _ (0 : Fin 3) * 1 + 1
    rw [e0']; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 4096 ≤ (i 2).val ∧ (i 2).val < win0_3.index _ (2 : Fin 3) * 4096 + 4096
    rw [e2]; omega

end Arrays

open Arrays

/-- What a point with mb = 3 writes back to the row array is its block of the row minima, given that the row window
    holds them there (`hrows`). -/
theorem flushed2_eq (c : Dev nD) (x y : FVec Ideal Cert.Chamfer.Pts .f32)
    (hrows : ∀ (t : Fin cfg0.N) (r : Fin 1024), t.val % 4 = 3 →
      (outsAt m c t.val t.isLt).1 (ix3 (0 : Fin 1) (0 : Fin 1) r : S1x1x1024.Idx)
        = Cert.Chamfer.rowMin x y (ix2 (⟨t.val / 16, by have := t_lt t; omega⟩ : Fin 8)
            (⟨1024 * ((t.val / 4) % 4) + r.val, by have := r.isLt; omega⟩ : Fin 4096)))
    (t : Fin cfg0.N) (hf : (cfg0.win 2).flush t = true) :
    (dats m 0 c).flushed 2 t
      = ((cfg0.win 2).blk t).view.read (Elt Ideal) (fun i : S8x1x4096.Idx => Cert.Chamfer.rowMin x y (ix2 (i 0) (i 2))) := by
  have h3 : t.val % 4 = 3 := (flush0_2 t).mp hf
  show (cfg0.win 2).cut (grid0.coords t) ((dats m 0 c).after 2 t) = _
  rw [after2]
  obtain ⟨e0, e1, e2, -⟩ := idx_facts t
  funext j
  have hj0 : (j 0).val < 1 := (j 0).isLt
  have hj1 : (j 1).val < 1 := (j 1).isLt
  have hj2 : (j 2).val < 1024 := (j 2).isLt
  have hj : j = (ix3 (0 : Fin 1) (0 : Fin 1) (⟨(j 2).val, hj2⟩ : Fin 1024) : S1x1x1024.Idx) := by
    funext a; apply Fin.ext
    match a with
    | ⟨0, _⟩ => show (j 0).val = 0; omega
    | ⟨1, _⟩ => show (j 1).val = 0; omega
    | ⟨2, _⟩ => rfl
  show (outsAt m c t.val t.isLt).1 j
    = Cert.Chamfer.rowMin x y (ix2 ((((cfg0.win 2).blk t).view.emb j) 0) ((((cfg0.win 2).blk t).view.emb j) 2))
  refine (congrArg (outsAt m c t.val t.isLt).1 hj).trans ((hrows t ⟨(j 2).val, hj2⟩ h3).trans ?_)
  refine congrArg (Cert.Chamfer.rowMin x y) (funext fun a => Fin.ext ?_)
  match a with
  | ⟨0, _⟩ => show t.val / 16 = win0_2.index t (0 : Fin 3) * 1 + 1 * (j 0).val; omega
  | ⟨1, _⟩ => show 1024 * ((t.val / 4) % 4) + (j 2).val = win0_2.index t (2 : Fin 3) * 1024 + 1 * (j 2).val; omega

/-- What a cloud's last point writes back to the column array is its block of the column minima, given that the column
    window holds them there (`hcols`). -/
theorem flushed3_eq (c : Dev nD) (x y : FVec Ideal Cert.Chamfer.Pts .f32)
    (hcols : ∀ (t : Fin cfg0.N) (j : Fin 4096), t.val % 16 = 15 →
      (outsAt m c t.val t.isLt).2 (ix3 (0 : Fin 1) (0 : Fin 1) j : S1x1x4096.Idx)
        = Cert.Chamfer.colMin x y (ix2 (⟨t.val / 16, by have := t_lt t; omega⟩ : Fin 8) j))
    (t : Fin cfg0.N) (hf : (cfg0.win 3).flush t = true) :
    (dats m 0 c).flushed 3 t
      = ((cfg0.win 3).blk t).view.read (Elt Ideal) (fun i : S8x1x4096.Idx => Cert.Chamfer.colMin x y (ix2 (i 0) (i 2))) := by
  have h15 : t.val % 16 = 15 := (flush0_3 t).mp hf
  show (cfg0.win 3).cut (grid0.coords t) ((dats m 0 c).after 3 t) = _
  rw [after3]
  obtain ⟨-, -, -, e0, e1, e2⟩ := idx_facts t
  funext j
  have hj0 : (j 0).val < 1 := (j 0).isLt
  have hj1 : (j 1).val < 1 := (j 1).isLt
  have hj2 : (j 2).val < 4096 := (j 2).isLt
  have hj : j = (ix3 (0 : Fin 1) (0 : Fin 1) (⟨(j 2).val, hj2⟩ : Fin 4096) : S1x1x4096.Idx) := by
    funext a; apply Fin.ext
    match a with
    | ⟨0, _⟩ => show (j 0).val = 0; omega
    | ⟨1, _⟩ => show (j 1).val = 0; omega
    | ⟨2, _⟩ => rfl
  show (outsAt m c t.val t.isLt).2 j
    = Cert.Chamfer.colMin x y (ix2 ((((cfg0.win 3).blk t).view.emb j) 0) ((((cfg0.win 3).blk t).view.emb j) 2))
  refine (congrArg (outsAt m c t.val t.isLt).2 hj).trans ((hcols t ⟨(j 2).val, hj2⟩ h15).trans ?_)
  refine congrArg (Cert.Chamfer.colMin x y) (funext fun a => Fin.ext ?_)
  match a with
  | ⟨0, _⟩ => show t.val / 16 = win0_3.index t (0 : Fin 3) * 1 + 1 * (j 0).val; omega
  | ⟨1, _⟩ => show (j 2).val = win0_3.index t (2 : Fin 3) * 4096 + 1 * (j 2).val; omega

/-- After the run the row array holds the row minima: entry (b, 0, n) is `rowMin x y (b, n)`. -/
theorem rows_array (c : Dev nD) (x y : FVec Ideal Cert.Chamfer.Pts .f32)
    (hrows : ∀ (t : Fin cfg0.N) (r : Fin 1024), t.val % 4 = 3 →
      (outsAt m c t.val t.isLt).1 (ix3 (0 : Fin 1) (0 : Fin 1) r : S1x1x1024.Idx)
        = Cert.Chamfer.rowMin x y (ix2 (⟨t.val / 16, by have := t_lt t; omega⟩ : Fin 8)
            (⟨1024 * ((t.val / 4) % 4) + r.val, by have := r.isLt; omega⟩ : Fin 4096))) :
    ((dats m 0 c).arrAt 2 cfg0.N : S8x1x4096.Idx → Ideal .f32)
      = fun i : S8x1x4096.Idx => Cert.Chamfer.rowMin x y (ix2 (i 0) (i 2)) :=
  (dats m 0 c).arrAt_eq_of_cover 2 _ (fun t hf => flushed2_eq m c x y hrows t hf) cover2

/-- After the run the column array holds the column minima: entry (b, 0, n) is `colMin x y (b, n)`. -/
theorem cols_array (c : Dev nD) (x y : FVec Ideal Cert.Chamfer.Pts .f32)
    (hcols : ∀ (t : Fin cfg0.N) (j : Fin 4096), t.val % 16 = 15 →
      (outsAt m c t.val t.isLt).2 (ix3 (0 : Fin 1) (0 : Fin 1) j : S1x1x4096.Idx)
        = Cert.Chamfer.colMin x y (ix2 (⟨t.val / 16, by have := t_lt t; omega⟩ : Fin 8) j)) :
    ((dats m 0 c).arrAt 3 cfg0.N : S8x1x4096.Idx → Ideal .f32)
      = fun i : S8x1x4096.Idx => Cert.Chamfer.colMin x y (ix2 (i 0) (i 2)) :=
  (dats m 0 c).arrAt_eq_of_cover 3 _ (fun t hf => flushed3_eq m c x y hcols t hf) cover3

end Cert.KernelIdeal.Body

end
-- ==== Proof.TileMin.lean ====
/-
  A minimum over 4096 points taken tile by tile.

  On the extended reals the fold of `min` from +∞ over a finite set is the infimum of the values: `c` is below it exactly when
  `c` is below every value (`le_fold_top`). So the fold over the 4096 indices is the `min` of the folds over the four tiles of 1024
  consecutive indices (`fold_min_tiles`), and accumulated tile by tile from +∞ it passes through the folds over the indices
  below 1024·k (`minBelow_zero`, `minBelow_succ`, `minBelow_four`). Nothing here enumerates an index set: an index
  i < 1024·(k+1) that is not below 1024·k is 1024·k + (i − 1024·k).
-/
import Mathlib.Data.Finset.Fold
import Mathlib.Data.EReal.Basic
import proofs.«161696_j11630771438180_2_alg».proof.Proof.Spec

noncomputable section

namespace Cert.Chamfer

open Idealize.ShloMosaic

/-- The word 0x7F800000 is +∞. -/
theorem top_eq : top = (⊤ : EReal) := by simp [Ideal.ofBits, Ideal.ieee]

/-- From +∞, `min` with x is x. -/
theorem min_top_left' (x : Ideal .f32) : min top x = x := by rw [top_eq]; exact min_top_left x

/-- Below the fold of `min` from +∞ is below every value. -/
theorem le_fold_top {ι : Type} (s : Finset ι) (f : ι → Ideal .f32) (c : Ideal .f32) :
    c ≤ s.fold min top f ↔ ∀ i ∈ s, c ≤ f i := by
  rw [Finset.le_fold_min, top_eq]
  exact ⟨fun h => h.2, fun h => ⟨le_top, h⟩⟩

/-- The least value on tile k: the indices 1024·k + r, r < 1024. -/
def tileMin (f : Fin 4096 → Ideal .f32) (k : Fin 4) : Ideal .f32 :=
  (Finset.univ : Finset (Fin 1024)).fold min top
    (fun r => f ⟨1024 * k.val + r.val, by have := k.isLt; have := r.isLt; omega⟩)

/-- The least value on the indices below 1024·k. -/
def minBelow (f : Fin 4096 → Ideal .f32) (k : Nat) : Ideal .f32 :=
  (Finset.univ.filter fun i : Fin 4096 => i.val < 1024 * k).fold min top f

theorem le_tileMin (f : Fin 4096 → Ideal .f32) (k : Fin 4) (c : Ideal .f32) :
    c ≤ tileMin f k ↔ ∀ r : Fin 1024, c ≤ f ⟨1024 * k.val + r.val, by have := k.isLt; have := r.isLt; omega⟩ := by
  unfold tileMin
  rw [le_fold_top]
  exact ⟨fun h r => h r (Finset.mem_univ r), fun h r _ => h r⟩

theorem le_minBelow (f : Fin 4096 → Ideal .f32) (k : Nat) (c : Ideal .f32) :
    c ≤ minBelow f k ↔ ∀ i : Fin 4096, i.val < 1024 * k → c ≤ f i := by
  unfold minBelow
  rw [le_fold_top]
  exact ⟨fun h i hi => h i (Finset.mem_filter.2 ⟨Finset.mem_univ i, hi⟩), fun h i hi => h i (Finset.mem_filter.1 hi).2⟩

/-- Before the first tile the accumulated minimum is +∞. -/
theorem minBelow_zero (f : Fin 4096 → Ideal .f32) : minBelow f 0 = top := by
  unfold minBelow
  rw [show (Finset.univ.filter fun i : Fin 4096 => i.val < 1024 * 0) = ∅ from
    Finset.filter_eq_empty_iff.2 fun i _ => by omega]
  exact Finset.fold_empty

/-- One more tile: the minimum below 1024·(k+1) is the `min` of the minimum below 1024·k and tile k's. -/
theorem minBelow_succ (f : Fin 4096 → Ideal .f32) (k : Nat) (hk : k < 4) :
    minBelow f (k + 1) = min (minBelow f k) (tileMin f ⟨k, hk⟩) := by
  refine eq_of_forall_le_iff fun c => ?_
  rw [le_min_iff, le_minBelow, le_minBelow, le_tileMin]
  constructor
  · intro h
    exact ⟨fun i hi => h i (by omega), fun r => h _ (by have := r.isLt; show 1024 * k + r.val < 1024 * (k + 1); omega)⟩
  · rintro ⟨h1, h2⟩ i hi
    by_cases hlt : i.val < 1024 * k
    · exact h1 i hlt
    · have e : (⟨1024 * k + (⟨i.val - 1024 * k, by omega⟩ : Fin 1024).val, by have := i.isLt; show 1024 * k + (i.val - 1024 * k) < 4096; omega⟩ : Fin 4096) = i :=
        Fin.ext (by show 1024 * k + (i.val - 1024 * k) = i.val; omega)
      have := h2 ⟨i.val - 1024 * k, by omega⟩
      rwa [e] at this

/-- After the four tiles the accumulated minimum is the minimum over all 4096 indices. -/
theorem minBelow_four (f : Fin 4096 → Ideal .f32) : minBelow f 4 = (Finset.univ : Finset (Fin 4096)).fold min top f := by
  unfold minBelow
  rw [show (Finset.univ.filter fun i : Fin 4096 => i.val < 1024 * 4) = Finset.univ from
    Finset.filter_true_of_mem fun i _ => by have := i.isLt; omega]

/-- The minimum over 4096 indices, accumulated from +∞ over the four tiles in order. -/
theorem fold_min_tiles_top (f : Fin 4096 → Ideal .f32) :
    (Finset.univ : Finset (Fin 4096)).fold min top f
      = min (min (min (min top (tileMin f 0)) (tileMin f 1)) (tileMin f 2)) (tileMin f 3) := by
  rw [← minBelow_four, minBelow_succ f 3 (by omega), minBelow_succ f 2 (by omega), minBelow_succ f 1 (by omega),
    minBelow_succ f 0 (by omega), minBelow_zero]
  rfl

/-- The same without the leading +∞. -/
theorem fold_min_tiles (f : Fin 4096 → Ideal .f32) :
    (Finset.univ : Finset (Fin 4096)).fold min top f
      = min (min (min (tileMin f 0) (tileMin f 1)) (tileMin f 2)) (tileMin f 3) := by
  rw [fold_min_tiles_top, min_top_left']

end Cert.Chamfer

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.Payloads.lean ====
/-
  What the kernel body's pure values compute, index by index, over the extended reals.

  The body works on a tile: a block of 1024 points of x and a block of 1024 points of y, each stored coordinate-major
  as a [1, 3, 1024] array. From them it forms the 1024 × 1024 tile of clamped squared distances
      d(r, c) = max (|x_r|² + |y_c|² - 2 · ⟨x_r, y_c⟩) 0,
  takes the least entry of each row and of each column (a fold of min from +∞), and merges those with running minima
  kept in [1, 1, 1024] slices. Each lemma below reads one of these values at one index given by its coordinates.
-/
import proofs.«161696_j11630771438180_2_alg».proof.Proof.Gen.KernelIdeal.Skeleton
import proofs.«161696_j11630771438180_2_alg».proof.Proof.Spec
import proofs.«161696_j11630771438180_2_alg».proof.Proof.LibColumnBroadcast
import proofs.«161696_j11630771438180_2_alg».proof.Proof.LibKeepdimsSum
import Idealize.ShloMosaic.Lib.ValueIdx
import Idealize.ShloMosaic.Lib.ValueLayout
import Idealize.ShloMosaic.PureOps.Reduce
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## General readings: a minimum along one axis, and a vector kept under two unit axes -/

/-- A float minimum along ONE axis, read over the extended reals: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

variable {α : Type}

/-- An `[a]` vector cast to `[1, 1, a]` reads, at `(u, w, i)`, the vector's entry `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-! ## Every index of a slice under two unit axes is `(0, 0, i)` -/

/-- An index of a `[1, 1, n]` array is `(0, 0, i)` for its last coordinate `i`. -/
theorem eq_ix3_00 {n : ℕ} (j : (⟨3, ![1, 1, n]⟩ : Shape).Idx) : j = ix3 (0 : Fin 1) (0 : Fin 1) (j 2) := by
  funext d
  match d with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- Every index of the running row minima's slice is `(0, 0, r)`. -/
theorem exists_ix3_1024 (j : S1x1x1024.Idx) : ∃ r : Fin 1024, j = ix3 (0 : Fin 1) (0 : Fin 1) r := ⟨j 2, eq_ix3_00 j⟩
/-- Every index of the column minima's buffer is `(0, 0, m)`. -/
theorem exists_ix3_4096 (j : S1x1x4096.Idx) : ∃ m : Fin 4096, j = ix3 (0 : Fin 1) (0 : Fin 1) m := ⟨j 2, eq_ix3_00 j⟩

/-! ## The row and column minima of a tile -/

/-- The row minima: entry `r` is the least entry of row `r` of the tile, a fold of `min` from +∞. -/
theorem rowmin_apply (v : FVec Ideal S1024x1024 .f32) (r : Fin 1024) :
    k0_pay1 (F := Ideal) v (ix1 r)
      = (Finset.univ : Finset (Fin 1024)).fold min Cert.Chamfer.top (fun c => v (ix2 r c)) := by
  unfold k0_pay1
  refine (multiReduction_minimumf_single (a := 1) v _ _ _ _ (ix1 r)).trans ?_
  refine Finset.fold_congr fun c _ => congrArg v (funext fun d => Fin.ext ?_)
  match d with
  | ⟨0, _⟩ => rfl
  | ⟨1, _⟩ => rfl

/-- The column minima: entry `c` is the least entry of column `c` of the tile. -/
theorem colmin_apply (v : FVec Ideal S1024x1024 .f32) (hr : S1024x1024.Reduces [0] S1024) (hφ : FKind.Formats .f32)
    (hacc : (0x7F800000#32 : BitVec 32) = FKind.minimumf.neutral .f32 hφ) (c : Fin 1024) :
    multiReduction .minimumf [0] S1024 v 0x7F800000#32 hr hφ hacc (ix1 c)
      = (Finset.univ : Finset (Fin 1024)).fold min Cert.Chamfer.top (fun r => v (ix2 r c)) := by
  refine (multiReduction_minimumf_single (a := 0) v _ hr hφ hacc (ix1 c)).trans ?_
  refine Finset.fold_congr fun r _ => congrArg v (funext fun d => Fin.ext ?_)
  match d with
  | ⟨0, _⟩ => rfl
  | ⟨1, _⟩ => rfl

/-! ## The stored values -/

/-- The first store of the row minima: the row minima themselves, under two unit axes. -/
theorem pay2_apply (v : FVec Ideal S1024x1024 .f32) (r : Fin 1024) :
    k0_pay2 (F := Ideal) v (ix3 (0 : Fin 1) (0 : Fin 1) r) = k0_pay1 (F := Ideal) v (ix1 r) := by
  unfold k0_pay2
  exact (shapeCast_ab_1ab_apply _ _ 0 0 r).trans (shapeCast_a_1a_apply _ _ 0 r)

/-- A later store of the row minima: the lesser of the running minimum and this tile's row minimum. -/
theorem pay3_apply (v : FVec Ideal S1024x1024 .f32) (a : Vec Ideal S1x1x1024 .f32) (r : Fin 1024) :
    k0_pay3 (F := Ideal) v a (ix3 (0 : Fin 1) (0 : Fin 1) r)
      = min (a (ix3 (0 : Fin 1) (0 : Fin 1) r)) (k0_pay1 (F := Ideal) v (ix1 r)) := by
  unfold k0_pay3
  refine (shapeCast_ab_1ab_apply _ _ 0 0 r).trans ?_
  refine (minimumf_apply _ _ _).trans ?_
  exact congrArg₂ min (shapeCast_1ab_ab_apply _ _ 0 r) (shapeCast_a_1a_apply _ _ 0 r)

/-- The column minima's buffer starts at +∞ everywhere. -/
theorem pay4_apply (j : Fin 4096) : k0_pay4 (F := Ideal) (ix3 (0 : Fin 1) (0 : Fin 1) j) = Cert.Chamfer.top := by
  unfold k0_pay4
  exact (shapeCast_ab_1ab_apply _ _ 0 0 j).trans rfl

/-- The store of the column minima: the lesser of the running minimum and this tile's column minimum. -/
theorem pay5_apply (v : FVec Ideal S1024x1024 .f32) (a : Vec Ideal S1x1x1024 .f32) (c : Fin 1024) :
    k0_pay5 (F := Ideal) v a (ix3 (0 : Fin 1) (0 : Fin 1) c)
      = min (a (ix3 (0 : Fin 1) (0 : Fin 1) c))
          ((Finset.univ : Finset (Fin 1024)).fold min Cert.Chamfer.top (fun r => v (ix2 r c))) := by
  unfold k0_pay5
  refine (shapeCast_a_11a_apply _ _ 0 0 c).trans ?_
  refine (minimumf_apply _ _ _).trans ?_
  exact congrArg₂ min (shapeCast_11a_a_apply _ _ c) (colmin_apply v _ _ _ c)

/-! ## The tile of clamped squared distances -/

section Tile

/-- The sum of the squares of a point's three coordinates: the sum along the coordinate axis of the block times itself,
    read at point `r`. -/
theorem sq_apply (p : FVec Ideal S3x1024 .f32) (h : S3x1024.Reduces [0] S1024) (hφ : FKind.Formats .f32)
    (hacc : (0x00000000#32 : BitVec 32) = FKind.add.neutral .f32 hφ) (r : Fin 1024) :
    multiReduction .add [0] S1024 (mulf p p) 0x00000000#32 h hφ hacc (ix1 r) = ∑ k : Fin 3, p (ix2 k r) * p (ix2 k r) := by
  refine (Ideal.multiReduction_add_single (a := 0) (mulf p p) 0x00000000#32 h hφ hacc (ix1 r)).trans ?_
  refine Finset.sum_congr rfl fun k _ => congrArg (fun i => p i * p i) (funext fun d => Fin.ext ?_)
  match d with
  | ⟨0, _⟩ => rfl
  | ⟨1, _⟩ => rfl

/-- Coordinate `o` of the points of a block, stood up as a column and repeated along the rows of the tile: at `(r, c)`
    it is coordinate `o` of point `r`. -/
theorem coordCol_apply (p : FVec Ideal S3x1024 .f32) (o : ℕ) (ho : o < 3) (hs : S3x1024.Slices ![o, 0] S1x1024)
    (h1 : S1x1024.ShapeCasts S1024) (h2 : S1024.ShapeCasts S1024x1) (hb : S1024x1.Broadcasts S1024x1024) (r c : Fin 1024) :
    broadcastTo S1024x1024 (shapeCast S1024x1 (shapeCast S1024 (extractStridedSlice S1x1024 ![o, 0] p hs) h1) h2) hb (ix2 r c)
      = p (ix2 (⟨o, ho⟩ : Fin 3) r) :=
  (broadcastTo_a1_ab_apply _ hb r c).trans <|
    (Cert.KeepdimsSum.shapeCast_a_a1_apply _ h2 r 0).trans <|
      (shapeCast_1a_a_apply _ h1 r).trans <|
        slice2_axis0_apply o p hs (0 : Fin 1) r (⟨o, ho⟩ : Fin 3) rfl

/-- Coordinate `o` of the points of a block, kept as a row and repeated down the columns of the tile: at `(r, c)` it is
    coordinate `o` of point `c`. -/
theorem coordRow_apply (g : FVec Ideal S3x1024 .f32) (o : ℕ) (ho : o < 3) (hs : S3x1024.Slices ![o, 0] S1x1024)
    (h1 : S1x1024.ShapeCasts S1024) (h2 : S1024.ShapeCasts S1x1024) (hb : S1x1024.Broadcasts S1024x1024) (r c : Fin 1024) :
    broadcastTo S1024x1024 (shapeCast S1x1024 (shapeCast S1024 (extractStridedSlice S1x1024 ![o, 0] g hs) h1) h2) hb (ix2 r c)
      = g (ix2 (⟨o, ho⟩ : Fin 3) c) :=
  (broadcastTo_1b_ab_apply _ hb r c).trans <|
    (shapeCast_a_1a_apply _ h2 0 c).trans <|
      (shapeCast_1a_a_apply _ h1 c).trans <|
        slice2_axis0_apply o g hs (0 : Fin 1) c (⟨o, ho⟩ : Fin 3) rfl

/-- The squared norm of point `r` of the x block, as the tile's rows see it. -/
theorem sqCol_apply (x : Vec Ideal S1x3x1024 .f32) (hc : S1x3x1024.ShapeCasts S3x1024) (h : S3x1024.Reduces [0] S1024)
    (hφ : FKind.Formats .f32) (hacc : (0x00000000#32 : BitVec 32) = FKind.add.neutral .f32 hφ)
    (h2 : S1024.ShapeCasts S1024x1) (hb : S1024x1.Broadcasts S1024x1024) (r c : Fin 1024) :
    broadcastTo S1024x1024
        (shapeCast S1024x1
          (multiReduction (F := Ideal) .add [0] S1024 (mulf (shapeCast S3x1024 x hc) (shapeCast S3x1024 x hc)) 0x00000000#32 h hφ hacc) h2)
        hb (ix2 r c)
      = ∑ k : Fin 3, x (ix3 (0 : Fin 1) k r) * x (ix3 (0 : Fin 1) k r) :=
  (broadcastTo_a1_ab_apply _ hb r c).trans <|
    (Cert.KeepdimsSum.shapeCast_a_a1_apply _ h2 r 0).trans <|
      (sq_apply (shapeCast S3x1024 x hc) h hφ hacc r).trans <|
        Finset.sum_congr rfl fun k _ =>
          congrArg₂ (· * ·) (shapeCast_1ab_ab_apply x hc k r) (shapeCast_1ab_ab_apply x hc k r)

/-- The squared norm of point `c` of the y block, as the tile's columns see it. -/
theorem sqRow_apply (y : Vec Ideal S1x3x1024 .f32) (hc : S1x3x1024.ShapeCasts S3x1024) (h : S3x1024.Reduces [0] S1024)
    (hφ : FKind.Formats .f32) (hacc : (0x00000000#32 : BitVec 32) = FKind.add.neutral .f32 hφ)
    (h2 : S1024.ShapeCasts S1x1024) (hb : S1x1024.Broadcasts S1024x1024) (r c : Fin 1024) :
    broadcastTo S1024x1024
        (shapeCast S1x1024
          (multiReduction (F := Ideal) .add [0] S1024 (mulf (shapeCast S3x1024 y hc) (shapeCast S3x1024 y hc)) 0x00000000#32 h hφ hacc) h2)
        hb (ix2 r c)
      = ∑ k : Fin 3, y (ix3 (0 : Fin 1) k c) * y (ix3 (0 : Fin 1) k c) :=
  (broadcastTo_1b_ab_apply _ hb r c).trans <|
    (shapeCast_a_1a_apply _ h2 0 c).trans <|
      (sq_apply (shapeCast S3x1024 y hc) h hφ hacc c).trans <|
        Finset.sum_congr rfl fun k _ =>
          congrArg₂ (· * ·) (shapeCast_1ab_ab_apply y hc k c) (shapeCast_1ab_ab_apply y hc k c)

/-- Coordinate `o` of point `r` of the x block, as the tile's rows see it. -/
theorem xCoord_apply (x : Vec Ideal S1x3x1024 .f32) (hc : S1x3x1024.ShapeCasts S3x1024) (o : ℕ) (ho : o < 3)
    (hs : S3x1024.Slices ![o, 0] S1x1024) (h1 : S1x1024.ShapeCasts S1024) (h2 : S1024.ShapeCasts S1024x1)
    (hb : S1024x1.Broadcasts S1024x1024) (r c : Fin 1024) :
    broadcastTo S1024x1024
        (shapeCast S1024x1 (shapeCast S1024 (extractStridedSlice S1x1024 ![o, 0] (shapeCast S3x1024 x hc) hs) h1) h2) hb (ix2 r c)
      = x (ix3 (0 : Fin 1) (⟨o, ho⟩ : Fin 3) r) :=
  (coordCol_apply (shapeCast S3x1024 x hc) o ho hs h1 h2 hb r c).trans (shapeCast_1ab_ab_apply x hc ⟨o, ho⟩ r)

/-- Coordinate `o` of point `c` of the y block, as the tile's columns see it. -/
theorem yCoord_apply (y : Vec Ideal S1x3x1024 .f32) (hc : S1x3x1024.ShapeCasts S3x1024) (o : ℕ) (ho : o < 3)
    (hs : S3x1024.Slices ![o, 0] S1x1024) (h1 : S1x1024.ShapeCasts S1024) (h2 : S1024.ShapeCasts S1x1024)
    (hb : S1x1024.Broadcasts S1024x1024) (r c : Fin 1024) :
    broadcastTo S1024x1024
        (shapeCast S1x1024 (shapeCast S1024 (extractStridedSlice S1x1024 ![o, 0] (shapeCast S3x1024 y hc) hs) h1) h2) hb (ix2 r c)
      = y (ix3 (0 : Fin 1) (⟨o, ho⟩ : Fin 3) c) :=
  (coordRow_apply (shapeCast S3x1024 y hc) o ho hs h1 h2 hb r c).trans (shapeCast_1ab_ab_apply y hc ⟨o, ho⟩ c)

/-- THE TILE: at `(r, c)` the clamped squared distance of point `r` of the x block and point `c` of the y block,
    max (|x_r|² + |y_c|² - 2 · ⟨x_r, y_c⟩) 0, the inner product summed in the order of the coordinates. -/
theorem tile_apply (x0 x1 : Vec Ideal S1x3x1024 .f32) (r c : Fin 1024) :
    k0_pay6 (F := Ideal) x0 x1 (ix2 r c)
      = max (((∑ k : Fin 3, x0 (ix3 (0 : Fin 1) k r) * x0 (ix3 (0 : Fin 1) k r))
              + (∑ k : Fin 3, x1 (ix3 (0 : Fin 1) k c) * x1 (ix3 (0 : Fin 1) k c)))
            - Cert.Chamfer.two * (∑ k : Fin 3, x0 (ix3 (0 : Fin 1) k r) * x1 (ix3 (0 : Fin 1) k c))) Cert.Chamfer.zero := by
  unfold k0_pay6
  simp only [maximumf_apply, subf_apply, addf_apply, mulf_apply, broadcast_apply]
  refine congrArg₂ max (congrArg₂ (· - ·) (congrArg₂ (· + ·) ?_ ?_) (congrArg₂ (· * ·) rfl ?_)) rfl
  · exact sqCol_apply x0 _ _ _ _ _ _ r c
  · exact sqRow_apply x1 _ _ _ _ _ _ r c
  · rw [Fin.sum_univ_three]
    exact congrArg₂ (· + ·)
      (congrArg₂ (· + ·)
        (congrArg₂ (· * ·) (xCoord_apply x0 _ 0 (by omega) _ _ _ _ r c) (yCoord_apply x1 _ 0 (by omega) _ _ _ _ r c))
        (congrArg₂ (· * ·) (xCoord_apply x0 _ 1 (by omega) _ _ _ _ r c) (yCoord_apply x1 _ 1 (by omega) _ _ _ _ r c)))
      (congrArg₂ (· * ·) (xCoord_apply x0 _ 2 (by omega) _ _ _ _ r c) (yCoord_apply x1 _ 2 (by omega) _ _ _ _ r c))

end Tile

end Cert.KernelIdeal.Pay

end
-- ==== Proof.KernelIdeal.ColsInv.lean ====
/-
  The column window's invariant.

  A grid point is t = 16·b + 4·nb + mb: cloud b, tile nb of its x-points, tile mb of its y-points. The column window holds one
  running minimum per y-point of cloud b. It starts at +∞ at the cloud's first point, and at every point its slice mb (the
  y-points 1024·mb + c') is lowered by the column minima of the point's tile of clamped squared distances. So after
  position t the entry at y-point j is the minimum of the distances to j over the x-points of the tiles seen so far: the
  tiles below nb + 1 when j's slice is at most mb, below nb otherwise (`cols_inv`, by recursion on the position: a step
  lowers the running minimum over the tiles below k by tile k's minimum, which is the running minimum over the tiles below
  k + 1). After the cloud's last point every slice has seen all four tiles: the entry is the column minimum (`cols_final`).
  What the body leaves in the window at a point (`FirstCols`, `RowCols`, `LaterCols`) and that the tile holds the
  distances (`TileIsDist`) are taken as hypotheses.
-/
import proofs.«161696_j11630771438180_2_alg».proof.Proof.KernelIdeal.Accum
import proofs.«161696_j11630771438180_2_alg».proof.Proof.TileMin
import proofs.«161696_j11630771438180_2_alg».proof.Proof.Spec
import proofs.«161696_j11630771438180_2_alg».proof.Proof.Payloads

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Cert.Chamfer

namespace ColsInv

/-- How many tiles of x-points the column minimum at y-point j has seen after position n = 16·b + 4·nb + mb: the slices
    up to mb have been merged at this nb too, the later ones only at the earlier nb. -/
def cnt (n j : Nat) : Nat := if j / 1024 ≤ n % 4 then (n / 4) % 4 + 1 else (n / 4) % 4

/-- At a cloud's first point only slice 0 has seen a tile. -/
theorem cnt_first (n j : Nat) (h16 : n % 16 = 0) : cnt n j = if j / 1024 = n % 4 then 0 + 1 else 0 := by
  unfold cnt; split_ifs <;> omega

/-- At a cloud's first point nb = 0. -/
theorem nb_first (n : Nat) (h16 : n % 16 = 0) : 0 = (n / 4) % 4 := by omega

/-- At any other point the slice mb has seen one tile more than after the point before, the others as many. -/
theorem cnt_next (n j : Nat) (hj : j < 4096) (h16 : ¬n % 16 = 0) :
    cnt n j = if j / 1024 = n % 4 then cnt (n - 1) j + 1 else cnt (n - 1) j := by
  unfold cnt; split_ifs <;> omega

/-- And the slice mb had seen the tiles below nb. -/
theorem cnt_prev (n j : Nat) (hj : j < 4096) (h16 : ¬n % 16 = 0) (hq : j / 1024 = n % 4) : cnt (n - 1) j = (n / 4) % 4 := by
  unfold cnt; split_ifs <;> omega

/-- One merge: a running minimum over the tiles below k, lowered by tile k's minimum where the slice is the point's, is
    the running minimum over the tiles below k + 1 there and unchanged elsewhere. -/
theorem step_val (g : Fin 4096 → Ideal .f32) (p tile : Ideal .f32) (k nb mb jq : Nat) (hnb : nb < 4)
    (hp : p = minBelow g k) (hk : jq = mb → k = nb) (htile : jq = mb → tile = tileMin g ⟨nb, hnb⟩) :
    (if jq = mb then min p tile else p) = minBelow g (if jq = mb then k + 1 else k) := by
  split_ifs with h
  · rw [hp, htile h, hk h, ← minBelow_succ]
  · exact hp

variable (m : (ℓ : Loc nD τ sig) → Buf (Elt Ideal) ℓ) (c : Dev nD) (x y : FVec Ideal Pts .f32)

/-- The grid has 128 points. -/
theorem t_lt (t : Fin cfg0.N) : t.val < 128 := lt_of_lt_of_eq t.isLt N_0

/-- The tile of clamped squared distances the body forms at grid point t. -/
abbrev T (t : Fin cfg0.N) : FVec Ideal S1024x1024 .f32 := k0_pay6 (F := Ideal) (iblk m c 0 t) (iblk m c 1 t)

/-- The least entry of column c' of that tile (a fold of min from +∞). -/
abbrev colTile (t : Fin cfg0.N) (c' : Fin 1024) : Ideal .f32 :=
  (Finset.univ : Finset (Fin 1024)).fold min top (fun r => T m c t (ix2 r c'))

/-- The clamped squared distances from the x-points of cloud b to its y-point j. -/
abbrev colFn (b : Fin 8) (j : Fin 4096) : Fin 4096 → Ideal .f32 := fun n' => dist x y b n' j

/-- The tile at t = 16·b + 4·nb + mb holds the distances of the x-points 1024·nb + r and the y-points 1024·mb + c'. -/
abbrev TileIsDist : Prop := ∀ (t : Fin cfg0.N) (r c' : Fin 1024),
  k0_pay6 (F := Ideal) (iblk m c 0 t) (iblk m c 1 t) (ix2 r c')
    = dist x y (⟨t.val / 16, by have := t_lt t; omega⟩ : Fin 8)
        (⟨1024 * ((t.val / 4) % 4) + r.val, by have := r.isLt; omega⟩ : Fin 4096)
        (⟨1024 * (t.val % 4) + c'.val, by have := c'.isLt; omega⟩ : Fin 4096)

/-- At a cloud's first point the column window is +∞ except on slice mb, where it is the tile's column minima from +∞. -/
abbrev FirstCols : Prop := ∀ (t : Fin cfg0.N) (h16 : t.val % 16 = 0) (j : Fin 4096),
  View.canon (piecesFirst m c t h16).1.2 (ix3 (0 : Fin 1) (0 : Fin 1) j : S1x1x4096.Idx)
    = if j.val / 1024 = t.val % 4 then min top (colTile m c t ⟨j.val % 1024, Nat.mod_lt _ (by omega)⟩) else top

/-- At the first block of y-points of a later block of x-points, slice mb of the running contents is lowered by the tile's
    column minima and the rest is kept. -/
abbrev RowCols : Prop := ∀ (t : Fin cfg0.N) (h4 : t.val % 4 = 0) (h16 : ¬t.val % 16 = 0) (xo3 : Vec Ideal S1x1x4096 .f32)
    (j : Fin 4096),
  colsOver t xo3 (piecesRow m c t h4 h16 xo3).1.2 (ix3 (0 : Fin 1) (0 : Fin 1) j : S1x1x4096.Idx)
    = if j.val / 1024 = t.val % 4 then
        min (xo3 (ix3 (0 : Fin 1) (0 : Fin 1) j)) (colTile m c t ⟨j.val % 1024, Nat.mod_lt _ (by omega)⟩)
      else xo3 (ix3 (0 : Fin 1) (0 : Fin 1) j)

/-- The same at a later block of y-points. -/
abbrev LaterCols : Prop := ∀ (t : Fin cfg0.N) (h4 : ¬t.val % 4 = 0) (xo2 : Vec Ideal S1x1x1024 .f32)
    (xo3 : Vec Ideal S1x1x4096 .f32) (j : Fin 4096),
  colsOver t xo3 (piecesLater m c t h4 xo2 xo3).1.2 (ix3 (0 : Fin 1) (0 : Fin 1) j : S1x1x4096.Idx)
    = if j.val / 1024 = t.val % 4 then
        min (xo3 (ix3 (0 : Fin 1) (0 : Fin 1) j)) (colTile m c t ⟨j.val % 1024, Nat.mod_lt _ (by omega)⟩)
      else xo3 (ix3 (0 : Fin 1) (0 : Fin 1) j)

/-- On the point's own slice the tile's column minimum at j is the minimum of the distances to y-point j over tile nb of
    the x-points. -/
theorem colTile_eq (htile : TileIsDist m c x y) (t : Fin cfg0.N) (j : Fin 4096) (hq : j.val / 1024 = t.val % 4) :
    colTile m c t ⟨j.val % 1024, Nat.mod_lt _ (by omega)⟩
      = tileMin (colFn x y (⟨t.val / 16, by have := t_lt t; omega⟩ : Fin 8) j) ⟨(t.val / 4) % 4, Nat.mod_lt _ (by omega)⟩ := by
  unfold tileMin
  refine Finset.fold_congr fun r _ => ?_
  refine (htile t r ⟨j.val % 1024, Nat.mod_lt _ (by omega)⟩).trans ?_
  exact congrArg (dist x y _ _) (Fin.ext (by show 1024 * (t.val % 4) + j.val % 1024 = j.val; omega))

/-- THE INVARIANT of the column window after position t: at y-point j of cloud b, the minimum of the distances to j over
    the x-points of the tiles it has seen. -/
abbrev Inv (t : Fin cfg0.N) : Prop := ∀ j : Fin 4096,
  (outsAt m c t.val t.isLt).2 (ix3 (0 : Fin 1) (0 : Fin 1) j : S1x1x4096.Idx)
    = minBelow (colFn x y (⟨t.val / 16, by have := t_lt t; omega⟩ : Fin 8) j) (cnt t.val j.val)

theorem inv_first (htile : TileIsDist m c x y) (hFirst3 : FirstCols m c) (t : Fin cfg0.N) (h16 : t.val % 16 = 0) :
    Inv m c x y t := by
  intro j
  rw [cnt_first t.val j.val h16, outsAt_first m c t h16]
  dsimp only
  rw [hFirst3 t h16 j]
  exact step_val (colFn x y _ j) top _ 0 ((t.val / 4) % 4) (t.val % 4) (j.val / 1024) (Nat.mod_lt _ (by omega))
    (minBelow_zero _).symm (fun _ => nb_first t.val h16) (fun hq => colTile_eq m c x y htile t j hq)

theorem inv_next (htile : TileIsDist m c x y) (hRow3 : RowCols m c) (hLater3 : LaterCols m c) (t : Fin cfg0.N)
    (h16 : ¬t.val % 16 = 0)
    (ihp : ∀ j : Fin 4096, (prev m c t).2 (ix3 (0 : Fin 1) (0 : Fin 1) j : S1x1x4096.Idx)
      = minBelow (colFn x y (⟨(t.val - 1) / 16, by have := t_lt t; omega⟩ : Fin 8) j) (cnt (t.val - 1) j.val)) :
    Inv m c x y t := by
  intro j
  have hb : (⟨(t.val - 1) / 16, by have := t_lt t; omega⟩ : Fin 8) = ⟨t.val / 16, by have := t_lt t; omega⟩ :=
    Fin.ext (by show (t.val - 1) / 16 = t.val / 16; omega)
  have hp : (prev m c t).2 (ix3 (0 : Fin 1) (0 : Fin 1) j : S1x1x4096.Idx)
      = minBelow (colFn x y (⟨t.val / 16, by have := t_lt t; omega⟩ : Fin 8) j) (cnt (t.val - 1) j.val) :=
    (ihp j).trans (congrArg (fun b : Fin 8 => minBelow (colFn x y b j) (cnt (t.val - 1) j.val)) hb)
  have v : (outsAt m c t.val t.isLt).2 (ix3 (0 : Fin 1) (0 : Fin 1) j : S1x1x4096.Idx)
      = if j.val / 1024 = t.val % 4 then
          min ((prev m c t).2 (ix3 (0 : Fin 1) (0 : Fin 1) j)) (colTile m c t ⟨j.val % 1024, Nat.mod_lt _ (by omega)⟩)
        else (prev m c t).2 (ix3 (0 : Fin 1) (0 : Fin 1) j) := by
    by_cases h4 : t.val % 4 = 0
    · rw [outsAt_row m c t h4 h16]
      dsimp only
      rw [hRow3 t h4 h16 (prev m c t).2 j]
    · rw [outsAt_later m c t h4]
      dsimp only
      rw [hLater3 t h4 (prev m c t).1 (prev m c t).2 j]
  rw [v, cnt_next t.val j.val j.isLt h16]
  exact step_val (colFn x y _ j) _ _ (cnt (t.val - 1) j.val) ((t.val / 4) % 4) (t.val % 4) (j.val / 1024)
    (Nat.mod_lt _ (by omega)) hp (fun hq => cnt_prev t.val j.val j.isLt h16 hq) (fun hq => colTile_eq m c x y htile t j hq)

/-- The invariant at every position, by recursion on the position: a cloud's first point starts afresh, every other point
    merges into what the point before left. -/
theorem inv_all (htile : TileIsDist m c x y) (hFirst3 : FirstCols m c) (hRow3 : RowCols m c) (hLater3 : LaterCols m c) :
    ∀ (n : Nat) (hn : n < cfg0.N), Inv m c x y ⟨n, hn⟩
  | 0, hn => inv_first m c x y htile hFirst3 ⟨0, hn⟩ (Nat.zero_mod 16)
  | n + 1, hn =>
    if h16 : (n + 1) % 16 = 0 then inv_first m c x y htile hFirst3 ⟨n + 1, hn⟩ h16
    else inv_next m c x y htile hRow3 hLater3 ⟨n + 1, hn⟩ h16
      (fun j => inv_all htile hFirst3 hRow3 hLater3 n (Nat.lt_of_succ_lt hn) j)

end ColsInv

open ColsInv

/-- After position t the column window holds, at y-point j of cloud t / 16, the minimum of the clamped squared distances to
    j over the x-points of the tiles it has seen: nb + 1 tiles on the slices up to mb, nb on the later ones. -/
theorem cols_inv (m : (ℓ : Loc nD τ sig) → Buf (Elt Ideal) ℓ) (c : Dev nD) (x y : FVec Ideal Pts .f32)
    (htile : TileIsDist m c x y) (hFirst3 : FirstCols m c) (hRow3 : RowCols m c) (hLater3 : LaterCols m c)
    (t : Fin cfg0.N) (j : Fin 4096) :
    (outsAt m c t.val t.isLt).2 (ix3 (0 : Fin 1) (0 : Fin 1) j : S1x1x4096.Idx)
      = minBelow (fun n' => dist x y (⟨t.val / 16, by have := t_lt t; omega⟩ : Fin 8) n' j)
          (if j.val / 1024 ≤ t.val % 4 then (t.val / 4) % 4 + 1 else (t.val / 4) % 4) :=
  inv_all m c x y htile hFirst3 hRow3 hLater3 t.val t.isLt j

/-- After a cloud's last point the column window holds the column minima. -/
theorem cols_final (m : (ℓ : Loc nD τ sig) → Buf (Elt Ideal) ℓ) (c : Dev nD) (x y : FVec Ideal Pts .f32)
    (htile : TileIsDist m c x y) (hFirst3 : FirstCols m c) (hRow3 : RowCols m c) (hLater3 : LaterCols m c)
    (t : Fin cfg0.N) (j : Fin 4096) (h15 : t.val % 16 = 15) :
    (outsAt m c t.val t.isLt).2 (ix3 (0 : Fin 1) (0 : Fin 1) j : S1x1x4096.Idx)
      = colMin x y (ix2 (⟨t.val / 16, by have := t_lt t; omega⟩ : Fin 8) j) := by
  rw [cols_inv m c x y htile hFirst3 hRow3 hLater3 t j,
    show (if j.val / 1024 ≤ t.val % 4 then (t.val / 4) % 4 + 1 else (t.val / 4) % 4) = 4 from by
      have := j.isLt; split_ifs <;> omega,
    minBelow_four]
  rfl

end Cert.KernelIdeal.Body

end
-- ==== Proof.KernelIdeal.RowsInv.lean ====
/-
  The row window's invariant.

  A grid point is t = 16·b + 4·nb + mb. The row window holds one running minimum per x-point of tile nb of cloud b. At mb = 0
  it is stored afresh: the row minima of the point's tile of clamped squared distances; at mb = 1, 2, 3 it is lowered by
  them. So after position t the entry at x-point 1024·nb + r is the minimum of its distances to the y-points of the tiles
  below mb + 1 (`rows_inv'`, by recursion on the position), and at mb = 3 it is the row minimum (`rows_final'`). What the
  body leaves in the window at a point (`FirstRows`, `RowRows`, `LaterRows`) and that the tile holds the distances
  (`TileIsDist`) are taken as hypotheses.
-/
import proofs.«161696_j11630771438180_2_alg».proof.Proof.KernelIdeal.Accum
import proofs.«161696_j11630771438180_2_alg».proof.Proof.TileMin
import proofs.«161696_j11630771438180_2_alg».proof.Proof.Spec
import proofs.«161696_j11630771438180_2_alg».proof.Proof.Payloads

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Cert.Chamfer

namespace RowsInv

variable (m : (ℓ : Loc nD τ sig) → Buf (Elt Ideal) ℓ) (c : Dev nD) (x y : FVec Ideal Pts .f32)

/-- The grid has 128 points. -/
theorem t_lt (t : Fin cfg0.N) : t.val < 128 := lt_of_lt_of_eq t.isLt N_0

/-- The least entry of row r of the tile of clamped squared distances the body forms at grid point t. -/
abbrev rowTile (t : Fin cfg0.N) (r : Fin 1024) : Ideal .f32 :=
  (Finset.univ : Finset (Fin 1024)).fold min top
    (fun c' => k0_pay6 (F := Ideal) (iblk m c 0 t) (iblk m c 1 t) (ix2 r c'))

/-- The clamped squared distances from x-point n of cloud b to its y-points. -/
abbrev rowFn (b : Fin 8) (n : Fin 4096) : Fin 4096 → Ideal .f32 := fun m' => dist x y b n m'

/-- The tile at t = 16·b + 4·nb + mb holds the distances of the x-points 1024·nb + r and the y-points 1024·mb + c'. -/
abbrev TileIsDist : Prop := ∀ (t : Fin cfg0.N) (r c' : Fin 1024),
  k0_pay6 (F := Ideal) (iblk m c 0 t) (iblk m c 1 t) (ix2 r c')
    = dist x y (⟨t.val / 16, by have := t_lt t; omega⟩ : Fin 8)
        (⟨1024 * ((t.val / 4) % 4) + r.val, by have := r.isLt; omega⟩ : Fin 4096)
        (⟨1024 * (t.val % 4) + c'.val, by have := c'.isLt; omega⟩ : Fin 4096)

/-- At a cloud's first point the row window is stored afresh: the tile's row minima. -/
abbrev FirstRows : Prop := ∀ (t : Fin cfg0.N) (h16 : t.val % 16 = 0) (r : Fin 1024),
  View.canon (piecesFirst m c t h16).1.1 (ix3 (0 : Fin 1) (0 : Fin 1) r : S1x1x1024.Idx) = rowTile m c t r

/-- The same at the first block of y-points of a later block of x-points. -/
abbrev RowRows : Prop := ∀ (t : Fin cfg0.N) (h4 : t.val % 4 = 0) (h16 : ¬t.val % 16 = 0) (xo3 : Vec Ideal S1x1x4096 .f32)
    (r : Fin 1024),
  View.canon (piecesRow m c t h4 h16 xo3).1.1 (ix3 (0 : Fin 1) (0 : Fin 1) r : S1x1x1024.Idx) = rowTile m c t r

/-- At a later block of y-points the running contents are lowered by the tile's row minima. -/
abbrev LaterRows : Prop := ∀ (t : Fin cfg0.N) (h4 : ¬t.val % 4 = 0) (xo2 : Vec Ideal S1x1x1024 .f32)
    (xo3 : Vec Ideal S1x1x4096 .f32) (r : Fin 1024),
  View.canon (piecesLater m c t h4 xo2 xo3).1.1 (ix3 (0 : Fin 1) (0 : Fin 1) r : S1x1x1024.Idx)
    = min (xo2 (ix3 (0 : Fin 1) (0 : Fin 1) r)) (rowTile m c t r)

/-- The tile's row minimum at r is the minimum of the distances from x-point 1024·nb + r over tile mb of the y-points. -/
theorem rowTile_eq (htile : TileIsDist m c x y) (t : Fin cfg0.N) (r : Fin 1024) :
    rowTile m c t r
      = tileMin (rowFn x y (⟨t.val / 16, by have := t_lt t; omega⟩ : Fin 8)
          (⟨1024 * ((t.val / 4) % 4) + r.val, by have := r.isLt; omega⟩ : Fin 4096)) ⟨t.val % 4, Nat.mod_lt _ (by omega)⟩ := by
  unfold tileMin
  exact Finset.fold_congr fun c' _ => htile t r c'

/-- Stored afresh at mb = 0, the tile's minimum is the minimum over the tiles below 1. -/
theorem fresh_val (g : Fin 4096 → Ideal .f32) (mb : Nat) (hmb : mb < 4) (h0 : mb = 0) :
    tileMin g ⟨mb, hmb⟩ = minBelow g (mb + 1) := by
  subst h0
  rw [minBelow_succ g 0 hmb, minBelow_zero, min_top_left']

/-- The same row of the same cloud, named by equal coordinates. -/
theorem minBelow_congr (b b' : Fin 8) (n n' : Fin 4096) (k k' : Nat) (hb : b = b') (hn : n = n') (hk : k = k') :
    minBelow (rowFn x y b n) k = minBelow (rowFn x y b' n') k' := by
  subst hb; subst hn; subst hk; rfl

/-- THE INVARIANT of the row window after position t: at x-point 1024·nb + r of cloud b, the minimum of its distances over
    the y-points of the tiles below mb + 1. -/
abbrev Inv (t : Fin cfg0.N) : Prop := ∀ r : Fin 1024,
  (outsAt m c t.val t.isLt).1 (ix3 (0 : Fin 1) (0 : Fin 1) r : S1x1x1024.Idx)
    = minBelow (rowFn x y (⟨t.val / 16, by have := t_lt t; omega⟩ : Fin 8)
        (⟨1024 * ((t.val / 4) % 4) + r.val, by have := r.isLt; omega⟩ : Fin 4096)) (t.val % 4 + 1)

theorem inv_first (htile : TileIsDist m c x y) (hFirst2 : FirstRows m c) (t : Fin cfg0.N) (h16 : t.val % 16 = 0) :
    Inv m c x y t := by
  intro r
  rw [outsAt_first m c t h16]
  dsimp only
  rw [hFirst2 t h16 r, rowTile_eq m c x y htile t r]
  exact fresh_val _ _ _ (by omega)

theorem inv_row (htile : TileIsDist m c x y) (hRow2 : RowRows m c) (t : Fin cfg0.N) (h4 : t.val % 4 = 0)
    (h16 : ¬t.val % 16 = 0) : Inv m c x y t := by
  intro r
  rw [outsAt_row m c t h4 h16]
  dsimp only
  rw [hRow2 t h4 h16 (prev m c t).2 r, rowTile_eq m c x y htile t r]
  exact fresh_val _ _ _ h4

theorem inv_later (htile : TileIsDist m c x y) (hLater2 : LaterRows m c) (t : Fin cfg0.N) (h4 : ¬t.val % 4 = 0)
    (ihp : ∀ r : Fin 1024, (prev m c t).1 (ix3 (0 : Fin 1) (0 : Fin 1) r : S1x1x1024.Idx)
      = minBelow (rowFn x y (⟨(t.val - 1) / 16, by have := t_lt t; omega⟩ : Fin 8)
          (⟨1024 * (((t.val - 1) / 4) % 4) + r.val, by have := r.isLt; omega⟩ : Fin 4096)) ((t.val - 1) % 4 + 1)) :
    Inv m c x y t := by
  intro r
  have hp : (prev m c t).1 (ix3 (0 : Fin 1) (0 : Fin 1) r : S1x1x1024.Idx)
      = minBelow (rowFn x y (⟨t.val / 16, by have := t_lt t; omega⟩ : Fin 8)
          (⟨1024 * ((t.val / 4) % 4) + r.val, by have := r.isLt; omega⟩ : Fin 4096)) (t.val % 4) :=
    (ihp r).trans (minBelow_congr x y _ _ _ _ _ _
      (Fin.ext (by show (t.val - 1) / 16 = t.val / 16; omega))
      (Fin.ext (by show 1024 * (((t.val - 1) / 4) % 4) + r.val = 1024 * ((t.val / 4) % 4) + r.val; omega))
      (by omega))
  rw [outsAt_later m c t h4]
  dsimp only
  rw [hLater2 t h4 (prev m c t).1 (prev m c t).2 r, rowTile_eq m c x y htile t r, hp]
  exact (minBelow_succ _ (t.val % 4) (Nat.mod_lt _ (by omega))).symm

/-- The invariant at every position, by recursion on the position: at mb = 0 the window is stored afresh, at every other
    point it merges into what the point before left. -/
theorem inv_all (htile : TileIsDist m c x y) (hFirst2 : FirstRows m c) (hRow2 : RowRows m c) (hLater2 : LaterRows m c) :
    ∀ (n : Nat) (hn : n < cfg0.N), Inv m c x y ⟨n, hn⟩
  | 0, hn => inv_first m c x y htile hFirst2 ⟨0, hn⟩ (Nat.zero_mod 16)
  | n + 1, hn =>
    if h16 : (n + 1) % 16 = 0 then inv_first m c x y htile hFirst2 ⟨n + 1, hn⟩ h16
    else if h4 : (n + 1) % 4 = 0 then inv_row m c x y htile hRow2 ⟨n + 1, hn⟩ h4 h16
    else inv_later m c x y htile hLater2 ⟨n + 1, hn⟩ h4
      (fun r => inv_all htile hFirst2 hRow2 hLater2 n (Nat.lt_of_succ_lt hn) r)

end RowsInv

open RowsInv

/-- After position t the row window holds, at x-point 1024·nb + r of cloud t / 16, the minimum of its clamped squared
    distances over the y-points of the tiles below mb + 1. -/
theorem rows_inv' (m : (ℓ : Loc nD τ sig) → Buf (Elt Ideal) ℓ) (c : Dev nD) (x y : FVec Ideal Pts .f32)
    (htile : RowsInv.TileIsDist m c x y) (hFirst2 : FirstRows m c) (hRow2 : RowRows m c) (hLater2 : LaterRows m c)
    (t : Fin cfg0.N) (r : Fin 1024) :
    (outsAt m c t.val t.isLt).1 (ix3 (0 : Fin 1) (0 : Fin 1) r : S1x1x1024.Idx)
      = minBelow (fun m' => dist x y (⟨t.val / 16, by have := RowsInv.t_lt t; omega⟩ : Fin 8)
          (⟨1024 * ((t.val / 4) % 4) + r.val, by have := r.isLt; omega⟩ : Fin 4096) m') (t.val % 4 + 1) :=
  inv_all m c x y htile hFirst2 hRow2 hLater2 t.val t.isLt r

/-- At mb = 3 the row window holds the row minima. -/
theorem rows_final' (m : (ℓ : Loc nD τ sig) → Buf (Elt Ideal) ℓ) (c : Dev nD) (x y : FVec Ideal Pts .f32)
    (htile : RowsInv.TileIsDist m c x y) (hFirst2 : FirstRows m c) (hRow2 : RowRows m c) (hLater2 : LaterRows m c)
    (t : Fin cfg0.N) (r : Fin 1024) (h3 : t.val % 4 = 3) :
    (outsAt m c t.val t.isLt).1 (ix3 (0 : Fin 1) (0 : Fin 1) r : S1x1x1024.Idx)
      = rowMin x y (ix2 (⟨t.val / 16, by have := RowsInv.t_lt t; omega⟩ : Fin 8)
          (⟨1024 * ((t.val / 4) % 4) + r.val, by have := r.isLt; omega⟩ : Fin 4096)) := by
  rw [rows_inv' m c x y htile hFirst2 hRow2 hLater2 t r, show t.val % 4 + 1 = 4 from by omega, minBelow_four]
  rfl

end Cert.KernelIdeal.Body

end
-- ==== Proof.KernelIdeal.Values.lean ====
/-
  What the two output windows hold after each point of the grid, over the extended reals, in closed form.

  A point is t = 16·b + 4·n + m: cloud b, block n of 1024 x-points, block m of 1024 y-points. The body's tile at the point
  holds the clamped squared distances of the points of the two blocks. The row window (one value per x-point of block n)
  is stored at m = 0 and lowered by `min` at m = 1, 2, 3: after the point it holds, for each x-point, the least distance
  to the y-points of blocks 0..m. The column window (one value per y-point of the cloud) is filled with +∞ at the cloud's
  first point and its slice m is lowered by `min` with the tile's column minima at every point: after the point it holds,
  for each y-point, the least distance to the x-points of the blocks already met for its slice.
  First each run's pieces are read at an index (for any float instance); then the two invariants follow by induction
  on the position.
-/
import proofs.«161696_j11630771438180_2_alg».proof.Proof.KernelIdeal.Accum
import proofs.«161696_j11630771438180_2_alg».proof.Proof.Payloads
import proofs.«161696_j11630771438180_2_alg».proof.Proof.TileMin
import proofs.«161696_j11630771438180_2_alg».proof.Proof.Spec
import Idealize.ShloMosaic.Lib.Pipeline.Value
import Idealize.ShloMosaic.Lib.Pipeline.FrameBody
import Idealize.ShloMosaic.Lib.Writes

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A slice of 1024 consecutive entries of the column window -/

section Slice
variable {Val : EltTy → Type}

/-- Entry `j` of the column window lies in the slice that starts at `o` exactly when o ≤ j < o + 1024. -/
theorem mem_slice {off : Fin 3 → ℕ} {o : ℕ} (hoff : off = ![0, 0, o])
    (inb : ∀ a, off a + S1x1x1024.size a ≤ S1x1x4096.size a) (j : Fin 4096) :
    ix3 (0 : Fin 1) (0 : Fin 1) j ∈ (Rect.unit (s := S1x1x4096) off S1x1x1024.size inb).set
      ↔ o ≤ j.val ∧ j.val < o + 1024 := by
  subst hoff
  rw [Rect.mem_set_unit]
  constructor
  · intro h; exact h 2
  · intro h a
    match a with
    | ⟨0, _⟩ => exact ⟨Nat.le_refl 0, Nat.one_pos⟩
    | ⟨1, _⟩ => exact ⟨Nat.le_refl 0, Nat.one_pos⟩
    | ⟨2, _⟩ => exact h

/-- Entry `r` of the slice that starts at `o` is entry o + r of the column window. -/
theorem emb_slice {off : Fin 3 → ℕ} {o : ℕ} (hoff : off = ![0, 0, o])
    (inb : ∀ a, off a + S1x1x1024.size a ≤ S1x1x4096.size a) (r : Fin 1024) (ho : o + r.val < 4096) :
    (Rect.unit (s := S1x1x4096) off S1x1x1024.size inb).emb (ix3 (0 : Fin 1) (0 : Fin 1) r)
      = ix3 (0 : Fin 1) (0 : Fin 1) (⟨o + r.val, ho⟩ : Fin 4096) := by
  subst hoff
  funext a
  apply Fin.ext
  match a with
  | ⟨0, _⟩ => rfl
  | ⟨1, _⟩ => rfl
  | ⟨2, _⟩ => show o + 1 * r.val = o + r.val; rw [Nat.one_mul]

/-- An entry of the slice, as the slice's own entry: j = o + (j − o). -/
theorem eq_emb_slice {off : Fin 3 → ℕ} {o : ℕ} (hoff : off = ![0, 0, o])
    (inb : ∀ a, off a + S1x1x1024.size a ≤ S1x1x4096.size a) (j : Fin 4096) (h : o ≤ j.val ∧ j.val < o + 1024) :
    ix3 (0 : Fin 1) (0 : Fin 1) j
      = (Rect.unit (s := S1x1x4096) off S1x1x1024.size inb).emb
          (ix3 (0 : Fin 1) (0 : Fin 1) (⟨j.val - o, by omega⟩ : Fin 1024)) := by
  rw [emb_slice hoff inb ⟨j.val - o, by omega⟩ (by have := j.isLt; show o + (j.val - o) < 4096; omega)]
  exact congrArg (ix3 (0 : Fin 1) (0 : Fin 1)) (Fin.ext (by show j.val = o + (j.val - o); omega))

/-- A load of the slice reads the column window's entries o + r. -/
theorem ld_slice {off : Fin 3 → ℕ} {o : ℕ} (hoff : off = ![0, 0, o])
    (inb : ∀ a, off a + S1x1x1024.size a ≤ S1x1x4096.size a) (X : S1x1x4096.Idx → Val .f32) (r : Fin 1024)
    (ho : o + r.val < 4096) :
    View.ld X (Rect.unit (s := S1x1x4096) off S1x1x1024.size inb) (ix3 (0 : Fin 1) (0 : Fin 1) r)
      = X (ix3 (0 : Fin 1) (0 : Fin 1) (⟨o + r.val, ho⟩ : Fin 4096)) :=
  congrArg X (emb_slice hoff inb r ho)

variable [∀ e, Nonempty (Val e)]

/-- After a last store to the slice, an entry of the slice holds the store's value; -/
theorem canon_slice_in {off : Fin 3 → ℕ} {o : ℕ} (hoff : off = ![0, 0, o])
    (inb : ∀ a, off a + S1x1x1024.size a ≤ S1x1x4096.size a)
    (w : (Rect.unit (s := S1x1x4096) off S1x1x1024.size inb).shape.Idx → Val .f32)
    (L : List (View.Piece Val S1x1x4096 .f32)) (j : Fin 4096) (h : o ≤ j.val ∧ j.val < o + 1024) :
    View.canon (⟨Rect.unit (s := S1x1x4096) off S1x1x1024.size inb, w⟩ :: L) (ix3 (0 : Fin 1) (0 : Fin 1) j)
      = w (ix3 (0 : Fin 1) (0 : Fin 1) (⟨j.val - o, by omega⟩ : Fin 1024)) := by
  rw [eq_emb_slice hoff inb j h]
  exact View.canon_cons_emb _ w L _

/-- an entry outside the slice holds what the earlier stores left. -/
theorem canon_slice_out {off : Fin 3 → ℕ} {o : ℕ} (hoff : off = ![0, 0, o])
    (inb : ∀ a, off a + S1x1x1024.size a ≤ S1x1x4096.size a)
    (w : (Rect.unit (s := S1x1x4096) off S1x1x1024.size inb).shape.Idx → Val .f32)
    (L : List (View.Piece Val S1x1x4096 .f32)) (j : Fin 4096) (h : ¬(o ≤ j.val ∧ j.val < o + 1024)) :
    View.canon (⟨Rect.unit (s := S1x1x4096) off S1x1x1024.size inb, w⟩ :: L) (ix3 (0 : Fin 1) (0 : Fin 1) j)
      = View.canon L (ix3 (0 : Fin 1) (0 : Fin 1) j) :=
  View.canon_cons_of_not_mem _ L (fun hm => h ((mem_slice hoff inb j).mp hm))

end Slice

section AnyInstance

variable {F : FTy → Type} [FloatOps F]

/-- A load of a whole staging buffer reads the contents it was given. -/
theorem readAt_whole_unread {S : Shape} {e : EltTy} (M : Memref sig .tc .vmem S e) (h : M.IsWhole) (X : S.Idx → Elt F e)
    {off : Fin S.rank → ℕ} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

variable (m : (ℓ : Loc nD τ sig) → Buf (Elt F) ℓ)

/-- The tile of clamped squared distances the body forms at point `t`, from the point's two input blocks. -/
abbrev tileAt (c : Dev nD) (t : Fin cfg0.N) : FVec F S1024x1024 .f32 := k0_pay6 (iblk m c 0 t) (iblk m c 1 t)

/-! ## The row window after a run: one whole store -/

/-- At a cloud's first point the row window holds the tile's row minima. -/
theorem rowsFirst_eq (c : Dev nD) (t : Fin cfg0.N) (h16 : t.val % 16 = 0) :
    View.canon (piecesFirst m c t h16).1.1 = k0_pay2 (tileAt m c t) := by
  unfold piecesFirst runFirst
  dsimp only
  rw [View.canon_unit_zero (S := S1x1x1024) off_zero3 inb_S1x1x1024_S1x1x1024_0_0_0,
    readAt_whole_unread (ms0 t) (hs0 t) _ off_zero3, readAt_whole_unread (ms1 t) (hs1 t) _ off_zero3]

/-- At the first block of y-points of a later block of x-points too. -/
theorem rowsRow_eq (c : Dev nD) (t : Fin cfg0.N) (h4 : t.val % 4 = 0) (h16 : ¬t.val % 16 = 0) (xo3 : Vec F S1x1x4096 .f32) :
    View.canon (piecesRow m c t h4 h16 xo3).1.1 = k0_pay2 (tileAt m c t) := by
  unfold piecesRow runRow
  dsimp only
  rw [View.canon_unit_zero (S := S1x1x1024) off_zero3 inb_S1x1x1024_S1x1x1024_0_0_0,
    readAt_whole_unread (ms0 t) (hs0 t) _ off_zero3, readAt_whole_unread (ms1 t) (hs1 t) _ off_zero3]

/-- At a later block of y-points the row window holds its running contents merged with the tile's row minima. -/
theorem rowsLater_eq (c : Dev nD) (t : Fin cfg0.N) (h4 : ¬t.val % 4 = 0) (xo2 : Vec F S1x1x1024 .f32) (xo3 : Vec F S1x1x4096 .f32) :
    View.canon (piecesLater m c t h4 xo2 xo3).1.1 = k0_pay3 (tileAt m c t) xo2 := by
  unfold piecesLater runLater
  dsimp only
  rw [View.canon_unit_zero (S := S1x1x1024) off_zero3 inb_S1x1x1024_S1x1x1024_0_0_0,
    readAt_whole_unread (ms0 t) (hs0 t) _ off_zero3, readAt_whole_unread (ms1 t) (hs1 t) _ off_zero3,
    readAt_whole_unread (ms2 t) (hs2 t) _ off_zero3]

/-! ## The column window after a run: one slice store, over the running contents or over the +∞ fill -/

/-- The block of y-points of a point is its position modulo 4. -/
theorem coords2 : ∀ t : Fin cfg0.N, (grid0.coords t 2).val = t.val % 4 :=
  (by decide +kernel : ∀ t : Fin grid0.N, (grid0.coords t 2).val = t.val % 4)

/-- The slice of the column window a point works on starts at 1024 · (t mod 4). -/
theorem off1_eq (t : Fin cfg0.N) : k0_off1 (grid0.coords t) = ![0, 0, 1024 * (t.val % 4)] := by
  rw [k0_off1_eq, coords2]

section SliceWrites
variable {Val : EltTy → Type} {sig' : RefSig} {κ : Kind} {sp : Space}

/-- After a last store to the slice, a read of an entry of the slice is the store's value; -/
theorem read_writes_slice_in (v : View sig' κ sp S1x1x4096 .f32) (f : v.ty.Contents Val) {off : Fin 3 → ℕ} {o : ℕ}
    (hoff : off = ![0, 0, o]) (inb : ∀ a, off a + S1x1x1024.size a ≤ S1x1x4096.size a)
    (w : (Rect.unit (s := S1x1x4096) off S1x1x1024.size inb).shape.Idx → Val .f32)
    (L : List (View.Piece Val S1x1x4096 .f32)) (j : Fin 4096) (h : o ≤ j.val ∧ j.val < o + 1024) :
    v.read Val (v.writes Val f (⟨Rect.unit (s := S1x1x4096) off S1x1x1024.size inb, w⟩ :: L)) (ix3 (0 : Fin 1) (0 : Fin 1) j)
      = w (ix3 (0 : Fin 1) (0 : Fin 1) (⟨j.val - o, by omega⟩ : Fin 1024)) := by
  rw [eq_emb_slice hoff inb j h]
  exact View.read_writes_cons_emb v f _ w L _

/-- an entry outside the slice keeps its contents under the one store. -/
theorem read_writes_slice_out (v : View sig' κ sp S1x1x4096 .f32) (f : v.ty.Contents Val) {off : Fin 3 → ℕ} {o : ℕ}
    (hoff : off = ![0, 0, o]) (inb : ∀ a, off a + S1x1x1024.size a ≤ S1x1x4096.size a)
    (w : (Rect.unit (s := S1x1x4096) off S1x1x1024.size inb).shape.Idx → Val .f32)
    (j : Fin 4096) (h : ¬(o ≤ j.val ∧ j.val < o + 1024)) :
    v.read Val (v.writes Val f [⟨Rect.unit (s := S1x1x4096) off S1x1x1024.size inb, w⟩]) (ix3 (0 : Fin 1) (0 : Fin 1) j)
      = v.read Val f (ix3 (0 : Fin 1) (0 : Fin 1) j) :=
  View.read_writes_apply_of_forall_not_mem v f _ _ fun p hp => by
    rw [List.mem_singleton] at hp
    subst hp
    exact fun hm => h ((mem_slice hoff inb j).mp hm)

end SliceWrites

/-- The slice of the column window's running contents a point reads. -/
abbrev sliceAt (t : Fin cfg0.N) (xo3 : Vec F S1x1x4096 .f32) : Vec F S1x1x1024 .f32 :=
  View.ld xo3 (Rect.unit (s := S1x1x4096) (k0_off1 (grid0.coords t)) S1x1x1024.size (k0_off1_inb (grid0.coords t)))

/-- Entry `r` of that slice is entry 1024 · (t mod 4) + r of the running contents. -/
theorem sliceAt_apply (t : Fin cfg0.N) (xo3 : Vec F S1x1x4096 .f32) (r : Fin 1024) :
    sliceAt t xo3 (ix3 (0 : Fin 1) (0 : Fin 1) r)
      = xo3 (ix3 (0 : Fin 1) (0 : Fin 1) (⟨1024 * (t.val % 4) + r.val, by have := r.isLt; omega⟩ : Fin 4096)) :=
  ld_slice (off1_eq t) (k0_off1_inb (grid0.coords t)) xo3 r _

/-- One slice store over the running contents: the slice of the point holds the store's value, the rest is kept. -/
theorem colsOver_slice (t : Fin cfg0.N) (xo3 : Vec F S1x1x4096 .f32) (T : FVec F S1024x1024 .f32) (j : Fin 4096) :
    colsOver t xo3
        [⟨Rect.unit (s := S1x1x4096) (k0_off1 (grid0.coords t)) S1x1x1024.size (k0_off1_inb (grid0.coords t)),
          k0_pay5 T (View.readAt (Elt F) (ms3 t).view
            (Rect.unit (s := S1x1x4096) (k0_off1 (grid0.coords t)) S1x1x1024.size (k0_off1_inb (grid0.coords t))).toLoadRect
            ((hs3 t).unread xo3))⟩]
        (ix3 (0 : Fin 1) (0 : Fin 1) j)
      = if j.val / 1024 = t.val % 4 then
          k0_pay5 T (sliceAt t xo3) (ix3 (0 : Fin 1) (0 : Fin 1) (⟨j.val % 1024, Nat.mod_lt _ (by omega)⟩ : Fin 1024))
        else xo3 (ix3 (0 : Fin 1) (0 : Fin 1) j) := by
  unfold colsOver
  split
  · rename_i h
    have h' : 1024 * (t.val % 4) ≤ j.val ∧ j.val < 1024 * (t.val % 4) + 1024 := by omega
    rw [read_writes_slice_in _ _ (off1_eq t) _ _ _ j h', View.readAt_eq_ld, (hs3 t).read_unread]
    exact congrArg (k0_pay5 T (sliceAt t xo3))
      (congrArg (ix3 (0 : Fin 1) (0 : Fin 1)) (Fin.ext (by show j.val - 1024 * (t.val % 4) = j.val % 1024; omega)))
  · rename_i h
    rw [read_writes_slice_out _ _ (off1_eq t) _ _ j (by omega), (hs3 t).read_unread]

/-- The column window after the run at the first block of y-points of a later block of x-points. -/
theorem colsRow_apply (c : Dev nD) (t : Fin cfg0.N) (h4 : t.val % 4 = 0) (h16 : ¬t.val % 16 = 0)
    (xo3 : Vec F S1x1x4096 .f32) (j : Fin 4096) :
    colsOver t xo3 (piecesRow m c t h4 h16 xo3).1.2 (ix3 (0 : Fin 1) (0 : Fin 1) j)
      = if j.val / 1024 = t.val % 4 then
          k0_pay5 (tileAt m c t) (sliceAt t xo3) (ix3 (0 : Fin 1) (0 : Fin 1) (⟨j.val % 1024, Nat.mod_lt _ (by omega)⟩ : Fin 1024))
        else xo3 (ix3 (0 : Fin 1) (0 : Fin 1) j) := by
  unfold piecesRow runRow
  dsimp only
  rw [readAt_whole_unread (ms0 t) (hs0 t) _ off_zero3, readAt_whole_unread (ms1 t) (hs1 t) _ off_zero3]
  exact colsOver_slice t xo3 (tileAt m c t) j

/-- The column window after the run at a later block of y-points. -/
theorem colsLater_apply (c : Dev nD) (t : Fin cfg0.N) (h4 : ¬t.val % 4 = 0) (xo2 : Vec F S1x1x1024 .f32)
    (xo3 : Vec F S1x1x4096 .f32) (j : Fin 4096) :
    colsOver t xo3 (piecesLater m c t h4 xo2 xo3).1.2 (ix3 (0 : Fin 1) (0 : Fin 1) j)
      = if j.val / 1024 = t.val % 4 then
          k0_pay5 (tileAt m c t) (sliceAt t xo3) (ix3 (0 : Fin 1) (0 : Fin 1) (⟨j.val % 1024, Nat.mod_lt _ (by omega)⟩ : Fin 1024))
        else xo3 (ix3 (0 : Fin 1) (0 : Fin 1) j) := by
  unfold piecesLater runLater
  dsimp only
  rw [readAt_whole_unread (ms0 t) (hs0 t) _ off_zero3, readAt_whole_unread (ms1 t) (hs1 t) _ off_zero3]
  exact colsOver_slice t xo3 (tileAt m c t) j

/-- The column window after the run at a cloud's first point: the +∞ fill, its slice of the point lowered by the tile's
    column minima. -/
theorem colsFirst_apply (c : Dev nD) (t : Fin cfg0.N) (h16 : t.val % 16 = 0) (j : Fin 4096) :
    View.canon (piecesFirst m c t h16).1.2 (ix3 (0 : Fin 1) (0 : Fin 1) j)
      = if j.val / 1024 = t.val % 4 then
          k0_pay5 (tileAt m c t) (sliceAt t (k0_pay4 (F := F)))
            (ix3 (0 : Fin 1) (0 : Fin 1) (⟨j.val % 1024, Nat.mod_lt _ (by omega)⟩ : Fin 1024))
        else k0_pay4 (F := F) (ix3 (0 : Fin 1) (0 : Fin 1) j) := by
  unfold piecesFirst runFirst
  dsimp only
  unfold runFirst.sl.v63 runFirst.sl.H3_1
  rw [readAt_whole_unread (ms0 t) (hs0 t) _ off_zero3, readAt_whole_unread (ms1 t) (hs1 t) _ off_zero3,
    View.readAt_writes_junk_eq_canon, View.canon_unit_zero (S := S1x1x4096) off_zero3 inb_S1x1x4096_S1x1x4096_0_0_0]
  split
  · rename_i h
    have h' : 1024 * (t.val % 4) ≤ j.val ∧ j.val < 1024 * (t.val % 4) + 1024 := by omega
    rw [canon_slice_in (off1_eq t) _ _ _ j h']
    exact congrArg (k0_pay5 (tileAt m c t) (sliceAt t (k0_pay4 (F := F))))
      (congrArg (ix3 (0 : Fin 1) (0 : Fin 1)) (Fin.ext (by show j.val - 1024 * (t.val % 4) = j.val % 1024; omega)))
  · rename_i h
    rw [canon_slice_out (off1_eq t) _ _ _ j (by omega),
      View.canon_unit_zero (S := S1x1x4096) off_zero3 inb_S1x1x4096_S1x1x4096_0_0_0]

end AnyInstance

/-! ## The same at the extended reals: minima of the tile's rows and columns -/

section AtIdeal

open Cert.KernelIdeal.Pay

variable (m : (ℓ : Loc nD τ sig) → Buf (Elt Ideal) ℓ)

/-- The +∞ fill is +∞ at every entry. -/
theorem pay4_top (i : S1x1x4096.Idx) : k0_pay4 (F := Ideal) i = Cert.Chamfer.top := by
  obtain ⟨j, rfl⟩ := exists_ix3_4096 i
  exact pay4_apply j

/-- The least entry of column `c'` of the tile at point `t`: a fold of `min` from +∞. -/
abbrev colTile (c : Dev nD) (t : Fin cfg0.N) (c' : Fin 1024) : Ideal .f32 :=
  (Finset.univ : Finset (Fin 1024)).fold min Cert.Chamfer.top (fun r => tileAt m c t (ix2 r c'))

/-- The least entry of row `r` of the tile at point `t`. -/
abbrev rowTile (c : Dev nD) (t : Fin cfg0.N) (r : Fin 1024) : Ideal .f32 :=
  (Finset.univ : Finset (Fin 1024)).fold min Cert.Chamfer.top (fun c' => tileAt m c t (ix2 r c'))

/-- At the first block of y-points the row window holds, for each x-point of the block, the tile's row minimum. -/
theorem rowsFirst_ideal (c : Dev nD) (t : Fin cfg0.N) (h16 : t.val % 16 = 0) (r : Fin 1024) :
    View.canon (piecesFirst m c t h16).1.1 (ix3 (0 : Fin 1) (0 : Fin 1) r)
      = rowTile m c t r := by
  rw [rowsFirst_eq]
  exact (pay2_apply _ r).trans (rowmin_apply _ r)

theorem rowsRow_ideal (c : Dev nD) (t : Fin cfg0.N) (h4 : t.val % 4 = 0) (h16 : ¬t.val % 16 = 0)
    (xo3 : Vec Ideal S1x1x4096 .f32) (r : Fin 1024) :
    View.canon (piecesRow m c t h4 h16 xo3).1.1 (ix3 (0 : Fin 1) (0 : Fin 1) r)
      = rowTile m c t r := by
  rw [rowsRow_eq]
  exact (pay2_apply _ r).trans (rowmin_apply _ r)

/-- At a later block of y-points it holds the running minimum lowered by the tile's row minimum. -/
theorem rowsLater_ideal (c : Dev nD) (t : Fin cfg0.N) (h4 : ¬t.val % 4 = 0) (xo2 : Vec Ideal S1x1x1024 .f32)
    (xo3 : Vec Ideal S1x1x4096 .f32) (r : Fin 1024) :
    View.canon (piecesLater m c t h4 xo2 xo3).1.1 (ix3 (0 : Fin 1) (0 : Fin 1) r)
      = min (xo2 (ix3 (0 : Fin 1) (0 : Fin 1) r))
          (rowTile m c t r) := by
  rw [rowsLater_eq]
  exact (pay3_apply _ xo2 r).trans (congrArg (min (xo2 (ix3 (0 : Fin 1) (0 : Fin 1) r))) (rowmin_apply _ r))

/-- At a cloud's first point the column window holds +∞ lowered by the tile's column minima on the point's slice and +∞
    elsewhere. -/
theorem colsFirst_ideal (c : Dev nD) (t : Fin cfg0.N) (h16 : t.val % 16 = 0) (j : Fin 4096) :
    View.canon (piecesFirst m c t h16).1.2 (ix3 (0 : Fin 1) (0 : Fin 1) j : S1x1x4096.Idx)
      = if j.val / 1024 = t.val % 4 then
          min Cert.Chamfer.top (colTile m c t (⟨j.val % 1024, Nat.mod_lt _ (by omega)⟩ : Fin 1024))
        else Cert.Chamfer.top := by
  rw [colsFirst_apply]
  by_cases h : j.val / 1024 = t.val % 4
  · rw [if_pos h, if_pos h]
    refine (pay5_apply _ _ _).trans (congrArg (min · _) ?_)
    exact pay4_top _
  · rw [if_neg h, if_neg h]
    exact pay4_apply j

/-- One slice store over running contents `xo3`: on the point's slice the running minimum lowered by the tile's column
    minimum, elsewhere the running minimum. -/
theorem colsOver_ideal (t : Fin cfg0.N) (xo3 : Vec Ideal S1x1x4096 .f32) (T : FVec Ideal S1024x1024 .f32) (j : Fin 4096)
    (h : j.val / 1024 = t.val % 4) :
    k0_pay5 (F := Ideal) T (sliceAt t xo3) (ix3 (0 : Fin 1) (0 : Fin 1) (⟨j.val % 1024, Nat.mod_lt _ (by omega)⟩ : Fin 1024))
      = min (xo3 (ix3 (0 : Fin 1) (0 : Fin 1) j))
          ((Finset.univ : Finset (Fin 1024)).fold min Cert.Chamfer.top
            (fun r => T (ix2 r (⟨j.val % 1024, Nat.mod_lt _ (by omega)⟩ : Fin 1024)))) := by
  refine (pay5_apply _ _ _).trans (congrArg (min · _) ?_)
  refine (sliceAt_apply t xo3 _).trans (congrArg xo3 (congrArg (ix3 (0 : Fin 1) (0 : Fin 1)) (Fin.ext ?_)))
  show 1024 * (t.val % 4) + j.val % 1024 = j.val
  omega

theorem colsRow_ideal (c : Dev nD) (t : Fin cfg0.N) (h4 : t.val % 4 = 0) (h16 : ¬t.val % 16 = 0)
    (xo3 : Vec Ideal S1x1x4096 .f32) (j : Fin 4096) :
    colsOver t xo3 (piecesRow m c t h4 h16 xo3).1.2 (ix3 (0 : Fin 1) (0 : Fin 1) j : S1x1x4096.Idx)
      = if j.val / 1024 = t.val % 4 then
          min (xo3 (ix3 (0 : Fin 1) (0 : Fin 1) j))
            (colTile m c t (⟨j.val % 1024, Nat.mod_lt _ (by omega)⟩ : Fin 1024))
        else xo3 (ix3 (0 : Fin 1) (0 : Fin 1) j) := by
  rw [colsRow_apply]
  by_cases h : j.val / 1024 = t.val % 4
  · rw [if_pos h, if_pos h]; exact colsOver_ideal t xo3 _ j h
  · rw [if_neg h, if_neg h]

theorem colsLater_ideal (c : Dev nD) (t : Fin cfg0.N) (h4 : ¬t.val % 4 = 0) (xo2 : Vec Ideal S1x1x1024 .f32)
    (xo3 : Vec Ideal S1x1x4096 .f32) (j : Fin 4096) :
    colsOver t xo3 (piecesLater m c t h4 xo2 xo3).1.2 (ix3 (0 : Fin 1) (0 : Fin 1) j : S1x1x4096.Idx)
      = if j.val / 1024 = t.val % 4 then
          min (xo3 (ix3 (0 : Fin 1) (0 : Fin 1) j))
            (colTile m c t (⟨j.val % 1024, Nat.mod_lt _ (by omega)⟩ : Fin 1024))
        else xo3 (ix3 (0 : Fin 1) (0 : Fin 1) j) := by
  rw [colsLater_apply]
  by_cases h : j.val / 1024 = t.val % 4
  · rw [if_pos h, if_pos h]; exact colsOver_ideal t xo3 _ j h
  · rw [if_neg h, if_neg h]

end AtIdeal

end Cert.KernelIdeal.Body

end
-- ==== Proof.Tail.lean ====
/-
  What the program computes after the region.

  The region leaves two 8 × 1 × 4096 arrays. The lines after it read each as an 8 × 4096 array (entry (b, n) is entry
  (b, 0, n)), and then take, of each, the mean over the batch of the per-cloud means, and add the two: the specification's
  `meanOfMeans` of the two arrays.
-/
import proofs.«161696_j11630771438180_2_alg».proof.Proof.Gen.KernelIdeal.Frame
import proofs.«161696_j11630771438180_2_alg».proof.Proof.Spec
import Idealize.ShloMosaic.Lib.StableHlo.Run
import Idealize.ShloMosaic.Lib.ValueLayout
import Idealize.ShloMosaic.Lib.ValueIdx

set_option maxRecDepth 16384

noncomputable section

namespace Cert.KernelIdeal.Tail

open Cert.KernelIdeal Cert.KernelIdeal.Gen Idealize.ShloMosaic Idealize.ShloMosaic.TcCoe Idealize.ShloMosaic.ValueIdx
  Idealize.ShloMosaic.StableHlo Idealize.SL.Sem Idealize.ShloMosaic.Rounds
open Idealize.ShloMosaic.Pipeline (Dat Cfg Window)

variable (m : (ℓ : Loc nD τ sig) → Buf (Elt Ideal) ℓ)

set_option maxHeartbeats 2000000 in
/-- What follows the region is the mean of means of the two output arrays, each read as an 8 × 4096 array. -/
theorem tail_eq (dats : (p : Fin 1) → (c : Dev nD) → Dat τ (Elt Ideal) Unit ℕ (UR sig nD τ) ℕ (cfgs p) c) (c : Dev nD) :
    Pipeline.afterTail₀ cfgs dats 0 (V0 m) [hostOps1] c main_v15
      = Cert.Chamfer.meanOfMeans reducesTo_S8x4096_S8_d1 h_S_ bcast_S_S8 reducesTo_S8_S_d0
          (shapeCast S8x4096 ((dats 0 c).arrAt 2 cfg0.N) shapeCasts_S8x1x4096_S8x4096)
          (shapeCast S8x4096 ((dats 0 c).arrAt 3 cfg0.N) shapeCasts_S8x1x4096_S8x4096) := by
  unfold Pipeline.afterTail₀
  simp only [List.flatten_cons, List.flatten_nil, List.append_nil]
  after_results_simp
  have e2 : Pipeline.withArrays (cfgs 0).spec c (V0 m c) (fun w => (dats 0 c).arrAt w (cfgs 0).N) (Proc.devRef .tc main_v2_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v2_1)
      = (dats 0 c).arrAt 3 cfg0.N := Pipeline.withArrays_arr spec0 launch0.win.arr_inj c _ _ 3
  rw [e2, e3]
  rfl

/-- An 8 × 1 × 4096 array read as 8 × 4096: at (b, n) it is the array at (b, 0, n). -/
theorem cast_apply (z : S8x1x4096.Idx → Ideal .f32) (b : Fin 8) (n : Fin 4096) :
    shapeCast S8x4096 z shapeCasts_S8x1x4096_S8x4096 (ix2 b n) = z (ix3 b (0 : Fin 1) n) :=
  shapeCast_apply z shapeCasts_S8x1x4096_S8x4096 _ _ (by
    rw [Shape.rowMajor_val_three, Shape.rowMajor_val_two]
    show (b.val * 1 + 0) * 4096 + n.val = b.val * 4096 + n.val
    omega)

/-- So an 8 × 1 × 4096 array holding R at (b, n) in its entry (b, 0, n), read as 8 × 4096, is R. -/
theorem cast_of_rows (R : S8x4096.Idx → Ideal .f32) :
    shapeCast S8x4096 (fun i : S8x1x4096.Idx => R (ix2 (i 0) (i 2))) shapeCasts_S8x1x4096_S8x4096 = R := by
  funext j
  rw [eq_ix2 j]
  exact cast_apply _ _ _

set_option maxHeartbeats 1000000 in
/-- With the two output arrays holding R and C (entry (b, 0, n) the value at (b, n)), what follows the region is the mean
    of means of R and C. -/
theorem tail_of_arrays (dats : (p : Fin 1) → (c : Dev nD) → Dat τ (Elt Ideal) Unit ℕ (UR sig nD τ) ℕ (cfgs p) c) (c : Dev nD)
    (R C : S8x4096.Idx → Ideal .f32)
    (hR : ((dats 0 c).arrAt 2 cfg0.N : S8x1x4096.Idx → Ideal .f32) = fun i : S8x1x4096.Idx => R (ix2 (i 0) (i 2)))
    (hC : ((dats 0 c).arrAt 3 cfg0.N : S8x1x4096.Idx → Ideal .f32) = fun i : S8x1x4096.Idx => C (ix2 (i 0) (i 2))) :
    Pipeline.afterTail₀ cfgs dats 0 (V0 m) [hostOps1] c main_v15
      = Cert.Chamfer.meanOfMeans reducesTo_S8x4096_S8_d1 h_S_ bcast_S_S8 reducesTo_S8_S_d0 R C := by
  rw [tail_eq m dats c, hR, hC, cast_of_rows, cast_of_rows]

end Cert.KernelIdeal.Tail

end
-- ==== Proof.Blocks.lean ====
/-
  The two input windows' blocks, read off the argument arrays.

  Before the region the program exchanges the last two axes of x and of y; the region's first input window walks the
  exchanged x in blocks of 3 × 1024 (all three coordinates of 1024 consecutive points), the second the exchanged y. At grid
  point t = 16·b + 4·nb + mb the first window's block index is (b, 0, nb) and the second's (b, 0, mb), so the blocks at
  (0, k, r) hold coordinate k of point 1024·nb + r of cloud b of x, and of point 1024·mb + r of cloud b of y.
-/
import proofs.«161696_j11630771438180_2_alg».proof.Proof.Gen.KernelIdeal.Frame
import Idealize.ShloMosaic.Lib.StableHlo.Run
import Idealize.ShloMosaic.Lib.ValueLayout
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
  Idealize.ShloMosaic.StableHlo Idealize.SL.Sem

variable (m : (ℓ : Loc nD τ sig) → Buf (Elt Ideal) ℓ)

/-- The region's first input array is x with its last two axes exchanged. -/
theorem V_main_v0 (c : Dev nD) :
    (V m c main_v0 : S8x3x4096.Idx → Ideal .f32)
      = transpose S8x3x4096 [0, 2, 1] (m ((c : Thread nD τ).loc main_arg0)) transposes_S8x4096x3_S8x3x4096_0_2_1 := by
  show StableHlo.after hostOps0 (fun b => m (c, b)) (Proc.devRef .tc main_v0) = _
  after_results

/-- The region's second input array is y with its last two axes exchanged. -/
theorem V_main_v1 (c : Dev nD) :
    (V m c main_v1 : S8x3x4096.Idx → Ideal .f32)
      = transpose S8x3x4096 [0, 2, 1] (m ((c : Thread nD τ).loc main_arg1)) transposes_S8x4096x3_S8x3x4096_0_2_1 := by
  show StableHlo.after hostOps0 (fun b => m (c, b)) (Proc.devRef .tc main_v1) = _
  after_results

/-- The two input windows' block indices at grid point t = 16·b + 4·nb + mb: (b, 0, nb) and (b, 0, mb). -/
theorem idx_facts : ∀ t : Fin cfg0.N, win0_0.index t (0 : Fin 3) = t.val / 16 ∧ win0_0.index t (1 : Fin 3) = 0
    ∧ win0_0.index t (2 : Fin 3) = (t.val / 4) % 4
    ∧ win0_1.index t (0 : Fin 3) = t.val / 16 ∧ win0_1.index t (1 : Fin 3) = 0
    ∧ win0_1.index t (2 : Fin 3) = t.val % 4 :=
  (by decide +kernel : ∀ t : Fin grid0.N, _)

theorem t_lt (t : Fin cfg0.N) : t.val < 128 := lt_of_lt_of_eq t.isLt N_0

/-- Window 0's block at grid point t, at (0, k, r), is x at (t / 16, 1024 · ((t / 4) % 4) + r, k). -/
theorem iblk0_apply (c : Dev nD) (t : Fin cfg0.N) (k : Fin 3) (r : Fin 1024) :
    iblk m c 0 t (ix3 (0 : Fin 1) k r : S1x3x1024.Idx)
      = m ((c : Thread nD τ).loc main_arg0)
          (ix3 (⟨t.val / 16, by have := t_lt t; omega⟩ : Fin 8)
            (⟨1024 * ((t.val / 4) % 4) + r.val, by have := r.isLt; omega⟩ : Fin 4096) k) := by
  show V m c main_v0 (((cfg0.win 0).blk t).view.emb (ix3 (0 : Fin 1) k r : S1x3x1024.Idx)) = _
  rw [V_main_v0]
  have e : ((cfg0.win 0).blk t).view.emb (ix3 (0 : Fin 1) k r : S1x3x1024.Idx)
      = (ix3 (⟨t.val / 16, by have := t_lt t; omega⟩ : Fin 8) k
          (⟨1024 * ((t.val / 4) % 4) + r.val, by have := r.isLt; omega⟩ : Fin 4096) : S8x3x4096.Idx) := by
    obtain ⟨e0, e1, e2, -⟩ := idx_facts t
    funext a; apply Fin.ext
    match a with
    | ⟨0, _⟩ => show win0_0.index t (0 : Fin 3) * 1 + 1 * 0 = t.val / 16; omega
    | ⟨1, _⟩ => show win0_0.index t (1 : Fin 3) * 3 + 1 * k.val = k.val; omega
    | ⟨2, _⟩ => show win0_0.index t (2 : Fin 3) * 1024 + 1 * r.val = 1024 * ((t.val / 4) % 4) + r.val; omega
  rw [e]
  exact transpose_ix3_021_apply _ _ _ _ _

/-- Window 1's block at grid point t, at (0, k, r), is y at (t / 16, 1024 · (t % 4) + r, k). -/
theorem iblk1_apply (c : Dev nD) (t : Fin cfg0.N) (k : Fin 3) (r : Fin 1024) :
    iblk m c 1 t (ix3 (0 : Fin 1) k r : S1x3x1024.Idx)
      = m ((c : Thread nD τ).loc main_arg1)
          (ix3 (⟨t.val / 16, by have := t_lt t; omega⟩ : Fin 8)
            (⟨1024 * (t.val % 4) + r.val, by have := r.isLt; omega⟩ : Fin 4096) k) := by
  show V m c main_v1 (((cfg0.win 1).blk t).view.emb (ix3 (0 : Fin 1) k r : S1x3x1024.Idx)) = _
  rw [V_main_v1]
  have e : ((cfg0.win 1).blk t).view.emb (ix3 (0 : Fin 1) k r : S1x3x1024.Idx)
      = (ix3 (⟨t.val / 16, by have := t_lt t; omega⟩ : Fin 8) k
          (⟨1024 * (t.val % 4) + r.val, by have := r.isLt; omega⟩ : Fin 4096) : S8x3x4096.Idx) := by
    obtain ⟨-, -, -, e0, e1, e2⟩ := idx_facts t
    funext a; apply Fin.ext
    match a with
    | ⟨0, _⟩ => show win0_1.index t (0 : Fin 3) * 1 + 1 * 0 = t.val / 16; omega
    | ⟨1, _⟩ => show win0_1.index t (1 : Fin 3) * 3 + 1 * k.val = k.val; omega
    | ⟨2, _⟩ => show win0_1.index t (2 : Fin 3) * 1024 + 1 * r.val = 1024 * (t.val % 4) + r.val; omega
  rw [e]
  exact transpose_ix3_021_apply _ _ _ _ _

end Cert.KernelIdeal.Blocks

end
-- ==== Proof.KernelIdeal.Result.lean ====
/-
  The kernel's result, as one function of the two point clouds.

  After the run the row window's array holds, at (b, 0, n), the least clamped squared distance from point n of cloud b of x to
  the points of cloud b of y, and the column window's array the same with the roles exchanged: each block written back is
  the fold the body accumulated over the tiles it met (four tiles of 1024 points for a row block; for the columns the four
  blocks of x-points, slice by slice). The host operations after the region take the two means. So the program's result is
  `meanOfMeans (rowMin x y) (colMin x y)` of its two arguments.
-/
import proofs.«161696_j11630771438180_2_alg».proof.Proof.KernelIdeal.Frame
import proofs.«161696_j11630771438180_2_alg».proof.Proof.KernelIdeal.Arrays
import proofs.«161696_j11630771438180_2_alg».proof.Proof.KernelIdeal.ColsInv
import proofs.«161696_j11630771438180_2_alg».proof.Proof.KernelIdeal.RowsInv
import proofs.«161696_j11630771438180_2_alg».proof.Proof.KernelIdeal.Values
import proofs.«161696_j11630771438180_2_alg».proof.Proof.Tail
import proofs.«161696_j11630771438180_2_alg».proof.Proof.Blocks
import proofs.«161696_j11630771438180_2_alg».proof.Proof.Payloads
import proofs.«161696_j11630771438180_2_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The tile of a point is the clamped squared distances of the point's block of x-points and block of y-points. -/
theorem tile_eq (c : Dev nD) (t : Fin cfg0.N) (r c' : Fin 1024) :
    k0_pay6 (F := Ideal) (iblk m c 0 t) (iblk m c 1 t) (ix2 r c')
      = Cert.Chamfer.dist (m ((c : Thread nD τ).loc main_arg0)) (m ((c : Thread nD τ).loc main_arg1))
          (⟨t.val / 16, by have := Cert.KernelIdeal.Blocks.t_lt t; omega⟩ : Fin 8)
          (⟨1024 * ((t.val / 4) % 4) + r.val, by have := r.isLt; omega⟩ : Fin 4096)
          (⟨1024 * (t.val % 4) + c'.val, by have := c'.isLt; omega⟩ : Fin 4096) := by
  rw [Cert.KernelIdeal.Pay.tile_apply]
  simp only [Cert.KernelIdeal.Blocks.iblk0_apply, Cert.KernelIdeal.Blocks.iblk1_apply]
  rfl

/-- The array of row minima after the run. -/
theorem rows_result (c : Dev nD) :
    ((dats m 0 c).arrAt 2 cfg0.N : S8x1x4096.Idx → Ideal .f32)
      = fun i : S8x1x4096.Idx => Cert.Chamfer.rowMin (m ((c : Thread nD τ).loc main_arg0)) (m ((c : Thread nD τ).loc main_arg1)) (ix2 (i 0) (i 2)) :=
  rows_array m c _ _ fun t r h3 =>
    rows_final' m c _ _ (tile_eq m c) (fun t h16 r => rowsFirst_ideal m c t h16 r) (fun t h4 h16 xo3 r => rowsRow_ideal m c t h4 h16 xo3 r)
      (fun t h4 xo2 xo3 r => rowsLater_ideal m c t h4 xo2 xo3 r) t r h3

/-- The array of column minima after the run. -/
theorem cols_result (c : Dev nD) :
    ((dats m 0 c).arrAt 3 cfg0.N : S8x1x4096.Idx → Ideal .f32)
      = fun i : S8x1x4096.Idx => Cert.Chamfer.colMin (m ((c : Thread nD τ).loc main_arg0)) (m ((c : Thread nD τ).loc main_arg1)) (ix2 (i 0) (i 2)) :=
  cols_array m c _ _ fun t j h15 =>
    cols_final m c _ _ (tile_eq m c) (fun t h16 j => colsFirst_ideal m c t h16 j) (fun t h4 h16 xo3 j => colsRow_ideal m c t h4 h16 xo3 j)
      (fun t h4 xo2 xo3 j => colsLater_ideal m c t h4 xo2 xo3 j) t j h15

/-- Every weakly fair execution of the program terminates with its result at the mean of means of the two arrays of minima,
    and its arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v15)
        = Cert.Chamfer.meanOfMeans reducesTo_S8x4096_S8_d1 h_S_ bcast_S_S8 reducesTo_S8_S_d0
            (Cert.Chamfer.rowMin (m ((c.tc : Thread nD τ).loc main_arg0)) (m ((c.tc : Thread nD τ).loc main_arg1)))
            (Cert.Chamfer.colMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main (F := Ideal) m ρ)
  · exact ((h c).2 main_v15 (Pipeline.mem_restRefs_of main_v15 (by decide) (by decide))).trans
      (Cert.KernelIdeal.Tail.tail_of_arrays m (dats m) c _ _ (rows_result m c) (cols_result m c))
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Body

end
-- ==== Proof.RefSide.lean ====
/-
  The reference program computes the Chamfer loss of the specification.

  Its clamped distance array at (b, n, m) is  max (|x_n|² + |y_m|² - 2 · ⟨x_n, y_m⟩) 0  (`v14_apply`: the two squared norms
  are sums over the three coordinates started from the word 0, which is the real 0, broadcast along a row and along a
  column; the inner product is the batched contraction over the coordinate axis). Its minimum over the last axis from +∞ is
  `rowMin`, over the middle axis `colMin` (`ref_rowMin`, `ref_colMin`: a minimum over one axis is the fold of `min` over
  that axis's coordinates, min being commutative and associative on the extended reals). What follows the two minima in the
  program is, operation by operation, the specification's `meanOfMeans` (`ref_result`), so every run of the reference ends
  with its result there and its arguments unchanged (`ref_run`, `frame_ri`).
-/
import proofs.«161696_j11630771438180_2_alg».proof.Defs
import proofs.«161696_j11630771438180_2_alg».proof.Proof.Gen.ReferenceIdeal.Read
import proofs.«161696_j11630771438180_2_alg».proof.Proof.Gen.Pre_finite_inputs
import proofs.«161696_j11630771438180_2_alg».proof.Proof.Spec

noncomputable section

namespace Cert.Chamfer.Ref

open Cert.ReferenceIdeal Cert.ReferenceIdeal.Gen Cert.ReferenceIdeal.Read Idealize.ShloMosaic Idealize.ShloMosaic.ValueIdx
  Idealize.ShloMosaic.TcCoe Idealize.SL.Sem

/-- Reading the squared norms of x at (b, n, ·): the index chain of the two broadcasts and the sum ends at (b, n, k). -/
theorem idx_sqx (b : Fin 8) (n m : Fin 4096) (k : Fin 3) :
    idx_main_v1 (idx_main_v5 (idx_main_v7 (ix3 b n m))) k = ix3 b n k :=
  funext fun a => match a with | ⟨0, _⟩ => rfl | ⟨1, _⟩ => rfl | ⟨2, _⟩ => rfl

/-- The same for the squared norms of y: the chain ends at (b, m, k). -/
theorem idx_sqy (b : Fin 8) (n m : Fin 4096) (k : Fin 3) :
    idx_main_v3 (idx_main_v6 (idx_main_v8 (ix3 b n m))) k = ix3 b m k :=
  funext fun a => match a with | ⟨0, _⟩ => rfl | ⟨1, _⟩ => rfl | ⟨2, _⟩ => rfl

/-- The inner product at (b, n, m) reads x at (b, n, k) … -/
theorem idx_dotl (b : Fin 8) (n m : Fin 4096) (k : Fin 3) : lidx_main_v4 (ix3 b n m) k = ix3 b n k :=
  funext fun a => match a with | ⟨0, _⟩ => rfl | ⟨1, _⟩ => rfl | ⟨2, _⟩ => rfl

/-- … and y at (b, m, k). -/
theorem idx_dotr (b : Fin 8) (n m : Fin 4096) (k : Fin 3) : ridx_main_v4 (ix3 b n m) k = ix3 b m k :=
  funext fun a => match a with | ⟨0, _⟩ => rfl | ⟨1, _⟩ => rfl | ⟨2, _⟩ => rfl

/-- The reference's clamped distance array at (b, n, m) is `dist x y b n m`: the two sums start from the word 0, which is
    the real 0; the words 2 and 0 of the product and of the clamp are kept as words. -/
theorem v14_apply (x y : FVec Ideal Pts .f32) (b : Fin 8) (n m : Fin 4096) :
    val_main_v14 (F := Ideal) x y (ix3 b n m) = dist x y b n m := by
  rw [val_main_v14_apply, val_main_v12_apply, val_main_v9_apply, val_main_v11_apply, val_main_v13_apply,
    val_main_cst_2_apply, val_main_v10_apply, val_main_cst_1_apply, val_main_v7_apply, val_main_v5_apply,
    val_main_v1_apply, val_main_v8_apply, val_main_v6_apply, val_main_v3_apply, val_main_v4_apply,
    val_main_cst_apply, val_main_cst_0_apply]
  have h0 : ∀ s : Ideal .f32, FloatOps.ofBits (F := Ideal) .f32 0x00000000#32 + s = s := fun s => by
    rw [Ideal.ofBits_def, Ideal.ofBits_zero_f32, zero_add]
  rw [h0, h0]
  simp only [idx_sqx, idx_sqy, idx_dotl, idx_dotr, val_main_v0_apply, val_main_v2_apply, Ideal.maximumf_def,
    Ideal.subf_def, Ideal.addf_def, Ideal.mulf_def, Ideal.ofBits_def]
  rfl

/-- The shape facts of the two minima in the form that inserts a coordinate on the dropped axis. -/
theorem reduces_d2 : S8x4096x4096.Reduces [2] S8x4096 := by decide
theorem reduces_d1 : S8x4096x4096.Reduces [1] S8x4096 := by decide

/-- (b, n) with m put back on the last axis is (b, n, m). -/
theorem lift_d2 (j : S8x4096.Idx) (k : Fin (S8x4096x4096.size 2)) :
    reduces_d2.lift j k = ix3 (j 0) (j 1) (⟨k.val, k.isLt⟩ : Fin 4096) := by
  funext c; apply Fin.ext
  fin_cases c <;> rfl

/-- (b, m) with n put back on the middle axis is (b, n, m). -/
theorem lift_d1 (j : S8x4096.Idx) (k : Fin (S8x4096x4096.size 1)) :
    reduces_d1.lift j k = ix3 (j 0) (⟨k.val, k.isLt⟩ : Fin 4096) (j 1) := by
  funext c; apply Fin.ext
  fin_cases c <;> rfl

/-- The reference's row minima are `rowMin`: a fold of min from +∞ over the points of y. -/
theorem ref_rowMin (x y : FVec Ideal Pts .f32) : val_main_v15 (F := Ideal) x y = rowMin x y := by
  funext j
  unfold val_main_v15
  rw [Host.reduce_eq_fold_single FloatOps.minimumf _ _ reducesTo_S8x4096x4096_S8x4096_d2 reduces_d2 h_S_ j]
  have hf : (val_main_v14 (F := Ideal) x y ∘ reduces_d2.lift j) = fun m : Fin 4096 => dist x y (j 0) (j 1) m :=
    funext fun k => (congrArg (val_main_v14 (F := Ideal) x y) (lift_d2 j k)).trans (v14_apply x y _ _ _)
  exact congrArg (fun f => Finset.fold min top f (Finset.univ : Finset (Fin 4096))) hf

/-- The reference's column minima are `colMin`. -/
theorem ref_colMin (x y : FVec Ideal Pts .f32) : val_main_v19 (F := Ideal) x y = colMin x y := by
  funext j
  unfold val_main_v19
  rw [Host.reduce_eq_fold_single FloatOps.minimumf _ _ reducesTo_S8x4096x4096_S8x4096_d1 reduces_d1 h_S_ j]
  have hf : (val_main_v14 (F := Ideal) x y ∘ reduces_d1.lift j) = fun n : Fin 4096 => dist x y (j 0) n (j 1) :=
    funext fun k => (congrArg (val_main_v14 (F := Ideal) x y) (lift_d1 j k)).trans (v14_apply x y _ _ _)
  exact congrArg (fun f => Finset.fold min top f (Finset.univ : Finset (Fin 4096))) hf

/-- The reference's result is the mean of means of the row and the column minima. -/
theorem ref_result (x y : FVec Ideal Pts .f32) :
    val_main_v27 (F := Ideal) x y
      = meanOfMeans reducesTo_S8x4096_S8_d1 h_S_ bcast_S_S8 reducesTo_S8_S_d0 (rowMin x y) (colMin x y) := by
  rw [← ref_rowMin, ← ref_colMin]
  rfl

/-- The reference's run: every weakly fair execution terminates with the result at the mean of means of the row and the
    column minima of the argument arrays, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = meanOfMeans reducesTo_S8x4096_S8_d1 h_S_ bcast_S_S8 reducesTo_S8_S_d0
              (rowMin (m ((c.tc : Thread nD τ).loc main_arg0)) (m ((c.tc : Thread nD τ).loc main_arg1)))
              (colMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v27_eq _ _).trans (ref_result _ _)), (h c).2⟩)
    (Cert.ReferenceIdeal.Value.run (F := Ideal) m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Chamfer.Ref

end
-- ==== Proof.LibMinReduce.lean ====
/-
  A minimum along one axis, read over the extended reals.

  Over the extended reals the float minimum is `min`, which commutes and associates; so a minimum taken along ONE axis of an
  array, from an accumulator's value, is at each index of the result the fold of `min` from that value over the
  coordinates of the reduced axis, in any order: the result index with the coordinate inserted on that axis names the
  entry. This holds of a vector reduction in a kernel and of a one-operand reduction with a minimum body in a host program.
-/
import Idealize.ShloMosaic.PureOps.Ideal
import Idealize.ShloMosaic.PureOps.Reduce
import Idealize.ShloMosaic.PureOps.Ideal.Laws

namespace Idealize.ShloMosaic.MinReduce

open Idealize.ShloMosaic

variable {φ : FTy}

/-- A float minimum along ONE axis of a vector, read over the extended reals: at each index of the result, the fold of
    `min` from the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A host program's one-operand reduction with a minimum body along ONE axis, read over the extended reals: at each index
    of the result, the fold of `min` from the initial value's element over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Idealize.ShloMosaic.MinReduce
-- ==== Proof.lean ====
/-
  The Chamfer loss of two batches of point clouds: a tiled kernel against the plain formula.

  For 8 pairs of clouds of 4096 points in three coordinates, with d(b,n,m) = max (|x_n|² + |y_m|² - 2·⟨x_n, y_m⟩) 0 the clamped
  squared distance, the loss is  mean_b mean_n min_m d(b,n,m) + mean_b mean_m min_n d(b,n,m).
  The reference computes the whole 8 × 4096 × 4096 table and reduces it. The kernel walks a grid of 8 × 4 × 4 tiles of
  1024 × 1024 distances: a row block's minima are stored at its first tile and merged by `min` over its other three; a
  cloud's column minima start at +∞ and each tile merges its column minima into its own slice of 1024; the two arrays of
  minima go through the same means as the reference's. Over the extended reals the two results are equal with no
  hypothesis on the inputs: the squared norms and the inner product are the same sums of three terms, `min` is associative
  and commutative with +∞ its unit, so a minimum taken tile by tile is the minimum (TileMin), and the means are one term.
  The three frames: the reference's is its run; the kernel's (at both instances, one text) is the body run in its three cases
  — a cloud's first tile, the first tile of a later row block, a later tile — under the launch of a pipelined region with
  host operations on both sides. The ideal pass rewrote nothing, so the idealization's statement is trivial.
-/
import proofs.«161696_j11630771438180_2_alg».proof.Defs
import proofs.«161696_j11630771438180_2_alg».proof.Proof.Gen.Kernel
import proofs.«161696_j11630771438180_2_alg».proof.Proof.Gen.KernelIdeal
import proofs.«161696_j11630771438180_2_alg».proof.Proof.Gen.ReferenceIdeal
import proofs.«161696_j11630771438180_2_alg».proof.Proof.Gen.Pre_finite_inputs
import proofs.«161696_j11630771438180_2_alg».proof.Proof.Kernel.Frame
import proofs.«161696_j11630771438180_2_alg».proof.Proof.KernelIdeal.Result
import proofs.«161696_j11630771438180_2_alg».proof.Proof.RefSide
import proofs.«161696_j11630771438180_2_alg».proof.Proof.Spec
import proofs.«161696_j11630771438180_2_alg».proof.Proof.LibMinReduce

noncomputable section

namespace Cert.Proof

open Idealize.ShloMosaic Idealize.ShloMosaic.TcCoe Idealize.SL.Sem

/-- The kernel as printed runs to its end, faults nowhere and leaves its arguments unchanged. -/
theorem frame_k : Cert.frame_Kernel := fun m ρ _ => Cert.Kernel.Body.frame (F := Bits) m ρ
/-- So does its idealization. -/
theorem frame_ki : Cert.frame_KernelIdeal := fun m ρ _ => Cert.KernelIdeal.Body.frame (F := Ideal) m ρ

/-- From memories agreeing on the two clouds, both idealized programs end at the mean of means of the row minima and the
    column minima of the clamped squared distances. -/
theorem algebraic : Cert.algebraic_KernelIdeal_ReferenceIdeal := by
  intro m ρ m' ρ' _ hagree
  refine ⟨_, Cert.KernelIdeal.Body.kernel_run m ρ, ?_⟩
  refine (θ_run Cert.ReferenceIdeal.defs _ _).mono (fun _ h c => ⟨(h c).1.trans ?_, (h c).2⟩) (Cert.Chamfer.Ref.ref_run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, Cert.Chamfer.Ref.frame_ri, trivial, algebraic⟩

end Cert.Proof

end
